-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x160 : Shape := ⟨2, ![262144, 160]⟩
abbrev S160x128 : Shape := ⟨2, ![160, 128]⟩
abbrev S128 : Shape := ⟨1, ![128]⟩
abbrev S128x10 : Shape := ⟨2, ![128, 10]⟩
abbrev S10 : Shape := ⟨1, ![10]⟩
abbrev S262144x128 : Shape := ⟨2, ![262144, 128]⟩
abbrev S_ : Shape := ⟨0, ![]⟩

class Facts : Prop where
  bcast_S_S262144x160 : S_.BroadcastsInDim S262144x160 (![] : Fin 0 → Fin S262144x160.rank)
  reducesTo_S262144x160_S_d0_1 : S262144x160.ReducesTo [0, 1] S_
  h_S_ : 0 < S_.numel
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S262144x128 : S_.BroadcastsInDim S262144x128 (![] : Fin 0 → Fin S262144x128.rank)
  reducesTo_S262144x128_S_d0_1 : S262144x128.ReducesTo [0, 1] S_

variable [Facts]

def fn_part2 {F : FTy → Type} [FloatOps F] (main_arg7 : FVec F S10 .f32) (main_arg8 : FVec F S262144x128 .f32) (main_arg9 : FVec F S128 .f32) (main_v33 : IVec S_ 1) : IVec S_ 1 :=
  let main_v34 : FVec F S10 .f32 := Host.absf main_arg7
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S262144x128 .f32 := Host.absf main_arg8
  let main_cst_14 : FVec F S_ .f32 := constant S_ .f32 0x7F800000#32
  let main_v40 : FVec F S262144x128 .f32 := broadcastInDim S262144x128 ![] bcast_S_S262144x128 main_cst_14
  let main_v41 : IVec S262144x128 1 := cmpf .olt main_v39 main_v40
  let main_c_15 : IVec S_ 1 := constantI S_ 1 1#1
  let main_v42 : IVec S_ 1 := (fun x v => Host.reduce IntOp.andi x v reducesTo_S262144x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S160x128 .f32) (main_arg5 : FVec F S128 .f32) (main_arg6 : FVec F S128x10 .f32) (main_arg7 : FVec F S10 .f32) (main_arg8 : FVec F S262144x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S160x128 .f32 := Host.absf main_arg4
  let main_cst_6 : FVec F S_ .f32 := constant S_ .f32 0x7F800000#32
  let main_v20 : FVec F S160x128 .f32 := broadcastInDim S160x128 ![] bcast_S_S160x128 main_cst_6
  let main_v21 : IVec S160x128 1 := cmpf .olt main_v19 main_v20
  let main_c_7 : IVec S_ 1 := constantI S_ 1 1#1
  let main_v22 : IVec S_ 1 := (fun x v => Host.reduce IntOp.andi x v reducesTo_S160x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x10 .f32 := Host.absf main_arg6
  let main_cst_10 : FVec F S_ .f32 := constant S_ .f32 0x7F800000#32
  let main_v30 : FVec F S128x10 .f32 := broadcastInDim S128x10 ![] bcast_S_S128x10 main_cst_10
  let main_v31 : IVec S128x10 1 := cmpf .olt main_v29 main_v30
  let main_c_11 : IVec S_ 1 := constantI S_ 1 1#1
  let main_v32 : IVec S_ 1 := (fun x v => Host.reduce IntOp.andi x v reducesTo_S128x10_S_d0_1 h_S_) main_v31 main_c_11
  let main_v33 : IVec S_ 1 := andi main_v28 main_v32
  fn_part2 (F := F) main_arg7 main_arg8 main_arg9 main_v33

def fn {F : FTy → Type} [FloatOps F] (main_arg0 : FVec F S262144x160 .f32) (main_arg1 : FVec F S262144x160 .f32) (main_arg2 : FVec F S160x128 .f32) (main_arg3 : FVec F S128 .f32) (main_arg4 : FVec F S160x128 .f32) (main_arg5 : FVec F S128 .f32) (main_arg6 : FVec F S128x10 .f32) (main_arg7 : FVec F S10 .f32) (main_arg8 : FVec F S262144x128 .f32) (main_arg9 : FVec F S128 .f32) : IVec S_ 1 :=
  let main_v0 : FVec F S262144x160 .f32 := Host.absf main_arg0
  let main_cst : FVec F S_ .f32 := constant S_ .f32 0x7F800000#32
  let main_v1 : FVec F S262144x160 .f32 := broadcastInDim S262144x160 ![] bcast_S_S262144x160 main_cst
  let main_v2 : IVec S262144x160 1 := cmpf .olt main_v0 main_v1
  let main_c : IVec S_ 1 := constantI S_ 1 1#1
  let main_v3 : IVec S_ 1 := (fun x v => Host.reduce IntOp.andi x v reducesTo_S262144x160_S_d0_1 h_S_) main_v2 main_c
  let main_v4 : FVec F S262144x160 .f32 := Host.absf main_arg1
  let main_cst_0 : FVec F S_ .f32 := constant S_ .f32 0x7F800000#32
  let main_v5 : FVec F S262144x160 .f32 := broadcastInDim S262144x160 ![] bcast_S_S262144x160 main_cst_0
  let main_v6 : IVec S262144x160 1 := cmpf .olt main_v4 main_v5
  let main_c_1 : IVec S_ 1 := constantI S_ 1 1#1
  let main_v7 : IVec S_ 1 := (fun x v => Host.reduce IntOp.andi x v reducesTo_S262144x160_S_d0_1 h_S_) main_v6 main_c_1
  let main_v8 : IVec S_ 1 := andi main_v3 main_v7
  let main_v9 : FVec F S160x128 .f32 := Host.absf main_arg2
  let main_cst_2 : FVec F S_ .f32 := constant S_ .f32 0x7F800000#32
  let main_v10 : FVec F S160x128 .f32 := broadcastInDim S160x128 ![] bcast_S_S160x128 main_cst_2
  let main_v11 : IVec S160x128 1 := cmpf .olt main_v9 main_v10
  let main_c_3 : IVec S_ 1 := constantI S_ 1 1#1
  let main_v12 : IVec S_ 1 := (fun x v => Host.reduce IntOp.andi x v reducesTo_S160x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S262144x160 : Shape := ⟨2, ![262144, 160]⟩
abbrev S160x128 : Shape := ⟨2, ![160, 128]⟩
abbrev S128 : Shape := ⟨1, ![128]⟩
abbrev S128x10 : Shape := ⟨2, ![128, 10]⟩
abbrev S10 : Shape := ⟨1, ![10]⟩
abbrev S262144x128 : Shape := ⟨2, ![262144, 128]⟩
abbrev S1x128 : Shape := ⟨2, ![1, 128]⟩
abbrev S1x10 : Shape := ⟨2, ![1, 10]⟩
abbrev S_ : Shape := ⟨0, ![]⟩
abbrev S1x1 : Shape := ⟨2, ![1, 1]⟩
abbrev S4096x160 : Shape := ⟨2, ![4096, 160]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S262144x10 : Shape := ⟨2, ![262144, 10]⟩
abbrev S4096x10 : Shape := ⟨2, ![4096, 10]⟩

abbrev nBuf : Space → Nat
  | .hbm => 25
  | .vmem => 22
  | .smem => 0
  | _ => 0

abbrev bufTy : (tb : Table) → Fin (tcTables nBuf tb) → BufTy
  | .hbm, ⟨0, _⟩ => ⟨S262144x160, .f32⟩
  | .hbm, ⟨1, _⟩ => ⟨S262144x160, .f32⟩
  | .hbm, ⟨2, _⟩ => ⟨S160x128, .f32⟩
  | .hbm, ⟨3, _⟩ => ⟨S128, .f32⟩
  | .hbm, ⟨4, _⟩ => ⟨S160x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S262144x128, .f32⟩
  | .hbm, ⟨9, _⟩ => ⟨S128, .f32⟩
  | .hbm, ⟨10, _⟩ => ⟨S1x128, .f32⟩
  | .hbm, ⟨11, _⟩ => ⟨S1x128, .f32⟩
  | .hbm, ⟨12, _⟩ => ⟨S1x10, .f32⟩
  | .hbm, ⟨13, _⟩ => ⟨S_, .f32⟩
  | .hbm, ⟨14, _⟩ => ⟨S128, .f32⟩
  | .hbm, ⟨15, _⟩ => ⟨S128, .i1⟩
  | .hbm, ⟨16, _⟩ => ⟨S128, .f32⟩
  | .hbm, ⟨17, _⟩ => ⟨S1x128, .f32⟩
  | .hbm, ⟨18, _⟩ => ⟨S1x1, .f32⟩
  | .hbm, ⟨19, _⟩ => ⟨S1x1, .f32⟩
  | .hbm, ⟨20, _⟩ => ⟨S1x1, .f32⟩
  | .hbm, ⟨21, _⟩ => ⟨S_, .f32⟩
  | .hbm, ⟨22, _⟩ => ⟨S1x1, .f32⟩
  | .hbm, ⟨23, _⟩ => ⟨S1x1, .f32⟩
  | .hbm, ⟨24, _⟩ => ⟨S262144x10, .f32⟩
  | .local _ .vmem, ⟨0, _⟩ => ⟨S4096x160, .f32⟩
  | .local _ .vmem, ⟨1, _⟩ => ⟨S4096x160, .f32⟩
  | .local _ .vmem, ⟨2, _⟩ => ⟨S160x128, .f32⟩
  | .local _ .vmem, ⟨3, _⟩ => ⟨S1x128, .f32⟩
  | .local _ .vmem, ⟨4, _⟩ => ⟨S1x1, .f32⟩
  | .local _ .vmem, ⟨5, _⟩ => ⟨S1x1, .f32⟩
  | .local _ .vmem, ⟨6, _⟩ => ⟨S4096x160, .f32⟩
  | .local _ .vmem, ⟨7, _⟩ => ⟨S4096x160, .f32⟩
  | .local _ .vmem, ⟨8, _⟩ => ⟨S4096x160, .f32⟩
  | .local _ .vmem, ⟨9, _⟩ => ⟨S4096x160, .f32⟩
  | .local _ .vmem, ⟨10, _⟩ => ⟨S4096x128, .f32⟩
  | .local _ .vmem, ⟨11, _⟩ => ⟨S4096x128, .f32⟩
  | .local _ .vmem, ⟨12, _⟩ => ⟨S160x128, .f32⟩
  | .local _ .vmem, ⟨13, _⟩ => ⟨S1x128, .f32⟩
  | .local _ .vmem, ⟨14, _⟩ => ⟨S160x128, .f32⟩
  | .local _ .vmem, ⟨15, _⟩ => ⟨S1x128, .f32⟩
  | .local _ .vmem, ⟨16, _⟩ => ⟨S128x10, .f32⟩
  | .local _ .vmem, ⟨17, _⟩ => ⟨S1x10, .f32⟩
  | .local _ .vmem, ⟨18, _⟩ => ⟨S1x128, .f32⟩
  | .local _ .vmem, ⟨19, _⟩ => ⟨S1x1, .f32⟩
  | .local _ .vmem, ⟨20, _⟩ => ⟨S4096x10, .f32⟩
  | .local _ .vmem, ⟨21, _⟩ => ⟨S4096x10, .f32⟩
  | _, _ => ⟨S262144x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem11_1 : DmaSem sig := 21

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_8 : BitVec 32 := 0#32
  let v18 : BitVec 1 := Scalar.cmpi .ne v17 c0_i32_8
  v18

def k0_cond2 (i : grid0.Coords) : BitVec 1 :=
  let arg0 : BitVec 32 := BitVec.ofNat 32 (i 0).val
  let c0_i32_9 : BitVec 32 := 0#32
  let v19 : BitVec 1 := Scalar.cmpi .sgt arg0 c0_i32_9
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x160 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S160x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S160x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x10 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4096x10 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  shapeCasts_S128_S1x128 : S128.ShapeCasts S1x128
  shapeCasts_S10_S1x10 : S10.ShapeCasts S1x10
  bcast_S_S128 : S_.BroadcastsInDim S128 (![] : Fin 0 → Fin S128.rank)
  inb_S4096x160_S4096x160_0_0 : ∀ a, (![0, 0] : Fin 2 → Nat) a + S4096x160.size a ≤ S4096x160.size a
  h_S4096x160 : 0 < S4096x160.numel
  bitsLt_bf16_f32 : FTy.bits .bf16 < FTy.bits .f32
  inb_S160x128_S160x128_0_0 : ∀ a, (![0, 0] : Fin 2 → Nat) a + S160x128.size a ≤ S160x128.size a
  h_S160x128 : 0 < S160x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  bcast_S_S1x1 : S_.BroadcastsInDim S1x1 (![] : Fin 0 → Fin S1x1.rank)
  inpos_S1x1_p0_0 : ∀ a, (![0, 0] : Fin 2 → Nat) a < S1x1.size a
  inb_S4096x128_S4096x128_0_0 : ∀ a, (![0, 0] : Fin 2 → Nat) a + S4096x128.size a ≤ S4096x128.size a
  h_S4096x128 : 0 < S4096x128.numel
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S4096x10 : S1x10.Broadcasts S4096x10
  inb_S4096x10_S4096x10_0_0 : ∀ a, (![0, 0] : Fin 2 → Nat) a + S4096x10.size a ≤ S4096x10.size a
  h_S4096x10 : 0 < S4096x10.numel
  dot_S4096x160_S160x128_S4096x128_1_0_0_1_n_n_wf : DotDims.WF S4096x160 S160x128 S4096x128 [1] [0] [0] [1] [] []
  dot_S4096x128_S128x10_S4096x10_1_0_0_1_n_n_wf : DotDims.WF S4096x128 S128x10 S4096x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x160.size a ≤ S262144x160.size a
  hwx0_0 : ∀ i : grid0.Coords, EltTy.bits .f32 = 32 ∨ (Rect.block (s := S262144x160) S4096x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x128.size a ≤ S160x128.size a
  hwx0_1 : ∀ i : grid0.Coords, EltTy.bits .f32 = 32 ∨ (Rect.block (s := S160x128) S160x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x160.size a ≤ S262144x160.size a
  hwx1_0 : ∀ i : grid1.Coords, EltTy.bits .f32 = 32 ∨ (Rect.block (s := S262144x160) S4096x160.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x160.size a ≤ S262144x160.size a
  hwx1_1 : ∀ i : grid1.Coords, EltTy.bits .f32 = 32 ∨ (Rect.block (s := S262144x160) S4096x160.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S262144x128.size a
  hwx1_2 : ∀ i : grid1.Coords, EltTy.bits .f32 = 32 ∨ (Rect.block (s := S262144x128) S4096x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S160x128.size a ≤ S160x128.size a
  hwx1_3 : ∀ i : grid1.Coords, EltTy.bits .f32 = 32 ∨ (Rect.block (s := S160x128) S160x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S160x128.size a ≤ S160x128.size a
  hwx1_5 : ∀ i : grid1.Coords, EltTy.bits .f32 = 32 ∨ (Rect.block (s := S160x128) S160x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x10.size a ≤ S128x10.size a
  hwx1_7 : ∀ i : grid1.Coords, EltTy.bits .f32 = 32 ∨ (Rect.block (s := S128x10) S128x10.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x10.size a ≤ S1x10.size a
  hwx1_8 : ∀ i : grid1.Coords, EltTy.bits .f32 = 32 ∨ (Rect.block (s := S1x10) S1x10.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4096x10.size a ≤ S262144x10.size a
  hwx1_11 : ∀ i : grid1.Coords, EltTy.bits .f32 = 32 ∨ (Rect.block (s := S262144x10) S4096x10.size (cc1_transform_11 i) (hinb1_11 i)).WholeWords (EltTy.packing .f32)

variable [Facts₀]

def dot_S4096x160_S160x128_S4096x128_1_0_0_1_n_n : DotDims S4096x160 S160x128 S4096x128 where
  lhsContracting := [1]
  rhsContracting := [0]
  lhsNonContracting := [0]
  rhsNonContracting := [1]
  lhsBatch := []
  rhsBatch := []
  wf := dot_S4096x160_S160x128_S4096x128_1_0_0_1_n_n_wf
def dot_S4096x128_S128x10_S4096x10_1_0_0_1_n_n : DotDims S4096x128 S128x10 S4096x10 where
  lhsContracting := [1]
  rhsContracting := [0]
  lhsNonContracting := [0]
  rhsNonContracting := [1]
  lhsBatch := []
  rhsBatch := []
  wf := dot_S4096x128_S128x10_S4096x10_1_0_0_1_n_n_wf

abbrev win0_0 : Pipeline.Window sig grid0 :=
  Pipeline.Window.ofSpec (Memref.whole main_arg0) S4096x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S160x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond1 i == 1#1) && !(k0_cond2 i == 1#1) | 4 => fun i => !(k0_cond1 i == 1#1) && !(k0_cond2 i == 1#1) | ⟨_ + 5, h⟩ => absurd h (Nat.not_lt.2 (Nat.le_add_left _ _))

abbrev win1_0 : Pipeline.Window sig grid1 :=
  Pipeline.Window.ofSpec (Memref.whole main_arg0) S4096x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4096x160.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S160x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S160x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg6) S128x10.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v2) S1x10.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v6) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v10) S1x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v11) S4096x10.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S262144x160 : Shape := ⟨2, ![262144, 160]⟩
abbrev S160x128 : Shape := ⟨2, ![160, 128]⟩
abbrev S128 : Shape := ⟨1, ![128]⟩
abbrev S128x10 : Shape := ⟨2, ![128, 10]⟩
abbrev S10 : Shape := ⟨1, ![10]⟩
abbrev S262144x128 : Shape := ⟨2, ![262144, 128]⟩
abbrev S1x128 : Shape := ⟨2, ![1, 128]⟩
abbrev S_ : Shape := ⟨0, ![]⟩
abbrev S262144 : Shape := ⟨1, ![262144]⟩
abbrev S262144x10 : Shape := ⟨2, ![262144, 10]⟩
abbrev S1x10 : Shape := ⟨2, ![1, 10]⟩

abbrev nBuf : Space → Nat
  | .hbm => 43
  | .vmem => 0
  | .smem => 0
  | _ => 0

abbrev bufTy : (tb : Table) → Fin (tcTables nBuf tb) → BufTy
  | .hbm, ⟨0, _⟩ => ⟨S262144x160, .f32⟩
  | .hbm, ⟨1, _⟩ => ⟨S262144x160, .f32⟩
  | .hbm, ⟨2, _⟩ => ⟨S160x128, .f32⟩
  | .hbm, ⟨3, _⟩ => ⟨S128, .f32⟩
  | .hbm, ⟨4, _⟩ => ⟨S160x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S262144x128, .f32⟩
  | .hbm, ⟨9, _⟩ => ⟨S128, .f32⟩
  | .hbm, ⟨10, _⟩ => ⟨S262144x128, .f32⟩
  | .hbm, ⟨11, _⟩ => ⟨S1x128, .f32⟩
  | .hbm, ⟨12, _⟩ => ⟨S262144x128, .f32⟩
  | .hbm, ⟨13, _⟩ => ⟨S262144x128, .f32⟩
  | .hbm, ⟨14, _⟩ => ⟨S262144x128, .f32⟩
  | .hbm, ⟨15, _⟩ => ⟨S_, .f32⟩
  | .hbm, ⟨16, _⟩ => ⟨S262144, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S262144x128, .f32⟩
  | .hbm, ⟨25, _⟩ => ⟨S262144x128, .f32⟩
  | .hbm, ⟨26, _⟩ => ⟨S262144x128, .f32⟩
  | .hbm, ⟨27, _⟩ => ⟨S_, .f32⟩
  | .hbm, ⟨28, _⟩ => ⟨S128, .f32⟩
  | .hbm, ⟨29, _⟩ => ⟨S128, .i1⟩
  | .hbm, ⟨30, _⟩ => ⟨S128, .f32⟩
  | .hbm, ⟨31, _⟩ => ⟨S1x128, .f32⟩
  | .hbm, ⟨32, _⟩ => ⟨S262144x128, .f32⟩
  | .hbm, ⟨33, _⟩ => ⟨S262144x128, .f32⟩
  | .hbm, ⟨34, _⟩ => ⟨S262144x128, .f32⟩
  | .hbm, ⟨35, _⟩ => ⟨S1x128, .f32⟩
  | .hbm, ⟨36, _⟩ => ⟨S262144x128, .f32⟩
  | .hbm, ⟨37, _⟩ => ⟨S262144x128, .f32⟩
  | .hbm, ⟨38, _⟩ => ⟨S262144x128, .f32⟩
  | .hbm, ⟨39, _⟩ => ⟨S262144x10, .f32⟩
  | .hbm, ⟨40, _⟩ => ⟨S1x10, .f32⟩
  | .hbm, ⟨41, _⟩ => ⟨S262144x10, .f32⟩
  | .hbm, ⟨42, _⟩ => ⟨S262144x10, .f32⟩
  | _, _ => ⟨S262144x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  reducesTo_S262144x128_S262144_d1 : S262144x128.ReducesTo [1] S262144
  h_S_ : 0 < S_.numel
  reducesTo_S262144_S_d0 : S262144.ReducesTo [0] S_
  bcast_S_S262144x128 : S_.BroadcastsInDim S262144x128 (![] : Fin 0 → Fin S262144x128.rank)
  bcast_S_S128 : S_.BroadcastsInDim S128 (![] : Fin 0 → Fin S128.rank)
  bcast_S10_S1x10_1 : S10.BroadcastsInDim S1x10 (![1] : Fin 1 → Fin S1x10.rank)
  bcast_S1x10_S262144x10_0_1 : S1x10.BroadcastsInDim S262144x10 (![0, 1] : Fin 2 → Fin S262144x10.rank)
  dot_S262144x160_S160x128_S262144x128_1_0_0_1_n_n_wf : DotDims.WF S262144x160 S160x128 S262144x128 [1] [0] [0] [1] [] []
  dot_S262144x128_S128x10_S262144x10_1_0_0_1_n_n_wf : DotDims.WF S262144x128 S128x10 S262144x10 [1] [0] [0] [1] [] []

variable [Facts₀]

def dot_S262144x160_S160x128_S262144x128_1_0_0_1_n_n : DotDims S262144x160 S160x128 S262144x128 where
  lhsContracting := [1]
  rhsContracting := [0]
  lhsNonContracting := [0]
  rhsNonContracting := [1]
  lhsBatch := []
  rhsBatch := []
  wf := dot_S262144x160_S160x128_S262144x128_1_0_0_1_n_n_wf
def dot_S262144x128_S128x10_S262144x10_1_0_0_1_n_n : DotDims S262144x128 S128x10 S262144x10 where
  lhsContracting := [1]
  rhsContracting := [0]
  lhsNonContracting := [0]
  rhsNonContracting := [1]
  lhsBatch := []
  rhsBatch := []
  wf := dot_S262144x128_S128x10_S262144x10_1_0_0_1_n_n_wf

class Facts : Prop extends Facts₀ where

variable [Facts]
-- ==== Proof.KRegionA.lean ====
/-
  The first pallas_call's half of the run, at a parameter `V` (the buffer contents when the region is entered). Its body
  computes, from a [4096, 160] tile of rows, the weights and the bias, the least and the greatest of the tile's row-wise
  absolute sums, and keeps a running least and a running greatest in its two [1, 1] output blocks: the first grid point
  stores the tile's two values, every later point stores the least (greatest) of what the point before left and the tile's.
  The two blocks are written back after the last point only, so between points each holds what the body left.
-/
import proofs.«172828_j78623671320711_1_alg».proof.Proof.Gen.Kernel.Launch
import proofs.«172828_j78623671320711_1_alg».proof.Proof.Gen.Kernel.Skeleton
import proofs.«172828_j78623671320711_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section RegionA
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two control cases, decided over the grid -/

/-- The first branch (store the tile's values) is taken at the first point only, -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- and the second (fold the tile's values into the running ones) at every other point. -/
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two branches stores at every coordinate: neither output block is ever idle. -/
theorem live_aux : ∀ v : Fin 64,
    (!(Scalar.cmpi .ne (Scalar.extui (Scalar.cmpi .eq (BitVec.ofNat 32 v.val) 0#32)) 0#32 == 1#1)
      && !(Scalar.cmpi .ne (Scalar.extui (Scalar.cmpi .sgt (BitVec.ofNat 32 v.val) 0#32)) 0#32 == 1#1)) = false := by
  decide +kernel
theorem live3 (i : cfg0.grid.Coords) : cfg0.idle 3 i = false := live_aux (i 0)
theorem live4 (i : cfg0.grid.Coords) : cfg0.idle 4 i = false := live_aux (i 0)

/-! ## What the body leaves in the two output blocks -/

abbrev r11 : Rect S1x1 := (Rect.unit (s := S1x1) ![0, 0] S1x1.size inb_S1x1_S1x1_0_0)

/-- At the first point: the tile's least row sum, -/
def out3_A (x0 : Vec F S4096x160 .f32) (x1 : Vec F S160x128 .f32) (x2 : Vec F S1x128 .f32) : Vec F S1x1 .f32 := View.canon [⟨r11, k0_pay2 (View.ld x0 (Rect.unit (s := S4096x160) ![0, 0] S4096x160.size inb_S4096x160_S4096x160_0_0)) (View.ld x1 (Rect.unit (s := S160x128) ![0, 0] S160x128.size inb_S160x128_S160x128_0_0)) (View.ld x2 (Rect.unit (s := S1x128) ![0, 0] S1x128.size inb_S1x128_S1x128_0_0))⟩]
/-- and its greatest. -/
def out4_A (x0 : Vec F S4096x160 .f32) (x1 : Vec F S160x128 .f32) (x2 : Vec F S1x128 .f32) : Vec F S1x1 .f32 := View.canon [⟨r11, k0_pay3 (View.ld x0 (Rect.unit (s := S4096x160) ![0, 0] S4096x160.size inb_S4096x160_S4096x160_0_0)) (View.ld x1 (Rect.unit (s := S160x128) ![0, 0] S160x128.size inb_S160x128_S160x128_0_0)) (View.ld x2 (Rect.unit (s := S1x128) ![0, 0] S1x128.size inb_S1x128_S1x128_0_0))⟩]
/-- At a later point: the least of what the block held and the tile's least, -/
def out3_B (x0 : Vec F S4096x160 .f32) (x1 : Vec F S160x128 .f32) (x2 : Vec F S1x128 .f32) (xo : Vec F S1x1 .f32) : Vec F S1x1 .f32 := View.canon [⟨r11, k0_pay4 (View.ld x0 (Rect.unit (s := S4096x160) ![0, 0] S4096x160.size inb_S4096x160_S4096x160_0_0)) (View.ld x1 (Rect.unit (s := S160x128) ![0, 0] S160x128.size inb_S160x128_S160x128_0_0)) (View.ld x2 (Rect.unit (s := S1x128) ![0, 0] S1x128.size inb_S1x128_S1x128_0_0)) (View.ld xo r11)⟩]
/-- and the greatest of what the block held and the tile's greatest. -/
def out4_B (x0 : Vec F S4096x160 .f32) (x1 : Vec F S160x128 .f32) (x2 : Vec F S1x128 .f32) (xo : Vec F S1x1 .f32) : Vec F S1x1 .f32 := View.canon [⟨r11, k0_pay5 (View.ld x0 (Rect.unit (s := S4096x160) ![0, 0] S4096x160.size inb_S4096x160_S4096x160_0_0)) (View.ld x1 (Rect.unit (s := S160x128) ![0, 0] S160x128.size inb_S160x128_S160x128_0_0)) (View.ld x2 (Rect.unit (s := S1x128) ![0, 0] S1x128.size inb_S1x128_S1x128_0_0)) (View.ld xo r11)⟩]

theorem cover11 (p0 : Vec F S1x1 .f32) (y : S1x1.Idx) :
    ∃ pc ∈ ([⟨r11, p0⟩] : List (View.Piece (Elt F) S1x1 .f32)), y ∈ pc.1.set :=
  View.cover_of_tiled [⟨r11, p0⟩] S1x1.size (by rfl) y

/-! ## The body's triple, case by case -/

set_option maxHeartbeats 4000000 in
/-- First point: the inputs at `x·`, the output blocks at anything; the body leaves the tile's two values. -/
theorem sound_kernel0_A (c : Dev nD) (E : Set ℕ) (i : grid0.Coords) (arg1 : Memref sig .tc .vmem S4096x160 .f32) (harg1 : arg1.IsWhole) (arg2 : Memref sig .tc .vmem S160x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole)
    (hc1 : k0_cond1 i = 1#1) (hc2 : ¬k0_cond2 i = 1#1) (x0 : Vec F S4096x160 .f32) (x1 : Vec F S160x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_A x0 x1 x2) ∗ owns (c : Thread nD τ) arg5 fullShare (out4_A x0 x1 x2)) -∗ K ⟨⟩))
      ⊢ wp frame (wpE (defs₀ (F := F)) Variants.none c none) E (cc0__kernelA i arg1 harg1 arg2 harg2 arg3 harg3 arg4 harg4 arg5 harg5) K := by
  simp only [cc0__kernelA_eq_skeleton]; unfold cc0__kernelA_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover11 _)
  iexists _; isplitr
  swap; · iexact H4
  ipureintro
  exact View.read_writes_eq_canon _ _ _ (cover11 _)

set_option maxHeartbeats 4000000 in
/-- A later point: the inputs at `x·`, the output blocks at what the point before left; the body folds the tile's
    two values into them. -/
theorem sound_kernel0_B (c : Dev nD) (E : Set ℕ) (i : grid0.Coords) (arg1 : Memref sig .tc .vmem S4096x160 .f32) (harg1 : arg1.IsWhole) (arg2 : Memref sig .tc .vmem S160x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole)
    (hc1 : ¬k0_cond1 i = 1#1) (hc2 : k0_cond2 i = 1#1) (x0 : Vec F S4096x160 .f32) (x1 : Vec F S160x128 .f32) (x2 : Vec F S1x128 .f32) (xo3 xo4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4
        ∗ (iprop(owns (c : Thread nD τ) arg1 fullShare x0 ∗ owns (c : Thread nD τ) arg2 fullShare x1 ∗ owns (c : Thread nD τ) arg3 fullShare x2 ∗ owns (c : Thread nD τ) arg4 fullShare (out3_B x0 x1 x2 xo3) ∗ owns (c : Thread nD τ) arg5 fullShare (out4_B x0 x1 x2 xo4)) -∗ K ⟨⟩))
      ⊢ wp frame (wpE (defs₀ (F := F)) Variants.none c none) E (cc0__kernelA i arg1 harg1 arg2 harg2 arg3 harg3 arg4 harg4 arg5 harg5) K := by
  simp only [cc0__kernelA_eq_skeleton]; unfold cc0__kernelA_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover11 _)
  iexists _; isplitr
  swap; · iexact H4
  ipureintro
  exact View.read_writes_eq_canon _ _ _ (cover11 _)

/-! ## What the two blocks hold after each point -/

/-- The running pair (least, greatest) after the body at position `n`: the tile's own values at the first point, folded
    into what position `n - 1` left at every later one. -/
def outsAt0 (c : Dev nD) : (n : ℕ) → n < cfg0.N → Vec F S1x1 .f32 × Vec F S1x1 .f32
  | 0, hn => (out3_A (iblk0 V c 0 ⟨0, hn⟩) (iblk0 V c 1 ⟨0, hn⟩) (iblk0 V c 2 ⟨0, hn⟩),
              out4_A (iblk0 V c 0 ⟨0, hn⟩) (iblk0 V c 1 ⟨0, hn⟩) (iblk0 V c 2 ⟨0, hn⟩))
  | n + 1, hn =>
    (out3_B (iblk0 V c 0 ⟨n + 1, hn⟩) (iblk0 V c 1 ⟨n + 1, hn⟩) (iblk0 V c 2 ⟨n + 1, hn⟩) (outsAt0 c n (Nat.lt_of_succ_lt hn)).1,
     out4_B (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val = 0) :
    outsAt0 V c t.val t.isLt = (out3_A (iblk0 V c 0 t) (iblk0 V c 1 t) (iblk0 V c 2 t), out4_A (iblk0 V c 0 t) (iblk0 V c 1 t) (iblk0 V c 2 t)) := by
  obtain ⟨n, hn⟩ := t
  cases n with
  | zero => exact rfl
  | succ n => exact absurd h0 (Nat.succ_ne_zero n)

theorem outsAt0_B (c : Dev nD) (t : Fin cfg0.N) (h0 : t.val ≠ 0) :
    outsAt0 V c t.val t.isLt =
      (out3_B (iblk0 V c 0 t) (iblk0 V c 1 t) (iblk0 V c 2 t) (outsAt0 V c (t.val - 1) (Nat.lt_of_le_of_lt (Nat.sub_le _ _) t.isLt)).1,
       out4_B (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd rfl h0
  | succ n => exact rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a later point the least's block holds what the body left at the point before: it is not written back between
    (only after the last point), and the block is never idle. -/
theorem before0_3_B (c : Dev nD) (t : Fin cfg0.N) (h0 : t.val ≠ 0) (d) :
    (dat0 V c).before 3 t d = (outsAt0 V c (t.val - 1) (Nat.lt_of_le_of_lt (Nat.sub_le _ _) t.isLt)).1 := by
  have hN : t.val < 64 := lt_of_lt_of_eq t.isLt (show cfg0.N = 64 from N_0)
  rw [Dat.before_out_kept _ 3 rfl t h0 (Bool.eq_false_iff.mpr fun h => by have := (flush0_3 _).mp h; dsimp only at this; omega)
    live3 (fun _ _ => rfl)]
  dsimp only [dat0]
/-- The same for the greatest's block. -/
theorem before0_4_B (c : Dev nD) (t : Fin cfg0.N) (h0 : t.val ≠ 0) (d) :
    (dat0 V c).before 4 t d = (outsAt0 V c (t.val - 1) (Nat.lt_of_le_of_lt (Nat.sub_le _ _) t.isLt)).2 := by
  have hN : t.val < 64 := lt_of_lt_of_eq t.isLt (show cfg0.N = 64 from N_0)
  rw [Dat.before_out_kept _ 4 rfl t h0 (Bool.eq_false_iff.mpr fun h => by have := (flush0_4 _).mp h; dsimp only at this; omega)
    live4 (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' memrefs hold their blocks; at the first point the first case's triple applies, at a
    later one the second's, its output blocks found at what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [outsAt0_A V c t h0]
    iintro ⟨HΦ, Ho, ⟨%d0, H0⟩, ⟨%d1, H1⟩, ⟨%d2, H2⟩, ⟨%d3, H3⟩, ⟨%d4, H4⟩⟩
    iapply (sound_kernel0_A c Set.univ (grid0.coords t) _ _ _ _ _ _ _ _ _ _ ((hcond1 t).mpr h0) (fun h => (hcond2 t).mp h h0)
      (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt0_B V c t h0]
    simp only [before0_3_B V c t h0, before0_4_B V c t h0]
    iintro ⟨HΦ, Ho, ⟨%d0, H0⟩, ⟨%d1, H1⟩, ⟨%d2, H2⟩, ⟨%d3, H3⟩, ⟨%d4, H4⟩⟩
    iapply (sound_kernel0_B c Set.univ (grid0.coords t) _ _ _ _ _ _ _ _ _ _ (fun h => h0 ((hcond1 t).mp h)) ((hcond2 t).mpr h0)
      (iblk0 V c 0 t) (iblk0 V c 1 t) (iblk0 V c 2 t) _ _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point: the two output blocks are live everywhere, so what the body must leave
    in each is `after`. -/
theorem body_obligation0 (c : Dev nD) : BodyObligation (dat0 (F := F) V c) (defs₀ (F := F)) Variants.none () Set.univ := fun t => by
  rw [bigSep_W0, bigSep_W0]
  have e3 : idle0 3 (grid0.coords t) = false := live3 _
  have e4 : idle0 4 (grid0.coords t) = false := live4 _
  simp only [e3, e4]
  exact sound_body0 V c t

end RegionA

end Cert.Kernel.Hand

end
-- ==== Proof.KRegionB.lean ====
/-
  The second pallas_call's half of the run, at a parameter `V` (the buffer contents when the region is entered): its body
  loads eleven input blocks whole, computes one [4096, 10] tile and stores it whole, at every one of the 64 grid points.
  What the output's staging buffer holds after the body is the canon of that one store over the payload of the input
  blocks; every input's buffer holds its block at every point, fetched there or not.
-/
import proofs.«172828_j78623671320711_1_alg».proof.Proof.Gen.Kernel.Launch
import proofs.«172828_j78623671320711_1_alg».proof.Proof.Gen.Kernel.Skeleton
import proofs.«172828_j78623671320711_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section RegionB
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current staging buffer holds its block at every point, fetched there or not. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- The output's whole-block rectangle. -/
abbrev r1_out : Rect S4096x10 := (Rect.unit (s := S4096x10) ![0, 0] S4096x10.size inb_S4096x10_S4096x10_0_0)

/-- The output window's staging buffer after the body, from the input windows' blocks: its one store. -/
def out1_11 (x0 : Vec F S4096x160 .f32) (x1 : Vec F S4096x160 .f32) (x2 : Vec F S4096x128 .f32) (x3 : Vec F S160x128 .f32) (x4 : Vec F S1x128 .f32) (x5 : Vec F S160x128 .f32) (x6 : Vec F S1x128 .f32) (x7 : Vec F S128x10 .f32) (x8 : Vec F S1x10 .f32) (x9 : Vec F S1x128 .f32) (x10 : Vec F S1x1 .f32) : Vec F S4096x10 .f32 :=
  View.canon [⟨r1_out, k1_pay1 (k1_pay2 (View.ld x0 (Rect.unit (s := S4096x160) ![0, 0] S4096x160.size inb_S4096x160_S4096x160_0_0)) (View.ld x1 (Rect.unit (s := S4096x160) ![0, 0] S4096x160.size inb_S4096x160_S4096x160_0_0)) (View.ld x3 (Rect.unit (s := S160x128) ![0, 0] S160x128.size inb_S160x128_S160x128_0_0)) (View.ld x5 (Rect.unit (s := S160x128) ![0, 0] S160x128.size inb_S160x128_S160x128_0_0)) (View.ld x4 (Rect.unit (s := S1x128) ![0, 0] S1x128.size inb_S1x128_S1x128_0_0)) (View.ld x10 (Rect.unit (s := S1x1) ![0, 0] S1x1.size inb_S1x1_S1x1_0_0)) (View.ld x2 (Rect.unit (s := S4096x128) ![0, 0] S4096x128.size inb_S4096x128_S4096x128_0_0)) (View.ld x9 (Rect.unit (s := S1x128) ![0, 0] S1x128.size inb_S1x128_S1x128_0_0)) (View.ld x6 (Rect.unit (s := S1x128) ![0, 0] S1x128.size inb_S1x128_S1x128_0_0)) (View.ld x7 (Rect.unit (s := S128x10) ![0, 0] S128x10.size inb_S128x10_S128x10_0_0))) (View.ld x8 (Rect.unit (s := S1x10) ![0, 0] S1x10.size inb_S1x10_S1x10_0_0))⟩]

/-- The one store covers the block. -/
theorem cover1_11 (p0 : Vec F S4096x10 .f32) (y : S4096x10.Idx) :
    ∃ pc ∈ ([⟨r1_out, p0⟩] : List (View.Piece (Elt F) S4096x10 .f32)), y ∈ pc.1.set :=
  View.cover_of_tiled [⟨r1_out, p0⟩] S4096x10.size (by rfl) y

set_option maxHeartbeats 4000000 in
/-- The body on whole staging memrefs, the inputs' at contents `x·` and the output's at anything, runs to the
    continuation holding the inputs' as they were and the output's at `out1_11` of them. -/
theorem sound_kernel1 (c : Dev nD) (E : Set ℕ) (i : grid1.Coords) (arg1 : Memref sig .tc .vmem S4096x160 .f32) (harg1 : arg1.IsWhole) (arg2 : Memref sig .tc .vmem S4096x160 .f32) (harg2 : arg2.IsWhole) (arg3 : Memref sig .tc .vmem S4096x128 .f32) (harg3 : arg3.IsWhole) (arg4 : Memref sig .tc .vmem S160x128 .f32) (harg4 : arg4.IsWhole) (arg5 : Memref sig .tc .vmem S1x128 .f32) (harg5 : arg5.IsWhole) (arg6 : Memref sig .tc .vmem S160x128 .f32) (harg6 : arg6.IsWhole) (arg7 : Memref sig .tc .vmem S1x128 .f32) (harg7 : arg7.IsWhole) (arg8 : Memref sig .tc .vmem S128x10 .f32) (harg8 : arg8.IsWhole) (arg9 : Memref sig .tc .vmem S1x10 .f32) (harg9 : arg9.IsWhole) (arg10 : Memref sig .tc .vmem S1x128 .f32) (harg10 : arg10.IsWhole) (arg11 : Memref sig .tc .vmem S1x1 .f32) (harg11 : arg11.IsWhole) (arg12 : Memref sig .tc .vmem S4096x10 .f32) (harg12 : arg12.IsWhole)
    (x0 : Vec F S4096x160 .f32) (x1 : Vec F S4096x160 .f32) (x2 : Vec F S4096x128 .f32) (x3 : Vec F S160x128 .f32) (x4 : Vec F S1x128 .f32) (x5 : Vec F S160x128 .f32) (x6 : Vec F S1x128 .f32) (x7 : Vec F S128x10 .f32) (x8 : Vec F S1x10 .f32) (x9 : Vec F S1x128 .f32) (x10 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out1_11 x0 x1 x2 x3 x4 x5 x6 x7 x8 x9 x10)) -∗ K ⟨⟩))
      ⊢ wp frame (wpE (defs₀ (F := F)) Variants.none c none) E (cc1__kernelB i arg1 harg1 arg2 harg2 arg3 harg3 arg4 harg4 arg5 harg5 arg6 harg6 arg7 harg7 arg8 harg8 arg9 harg9 arg10 harg10 arg11 harg11 arg12 harg12) K := by
  simp only [cc1__kernelB_eq_skeleton]; unfold cc1__kernelB_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover1_11 _)

/-- The proof data of the second pipeline on core `c`: the arrays as the region finds them; after the body each input's
    buffer at its block and the output's at `out1_11` of the input blocks; the untouched scoped rest and generator
    register as invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 1000000 in
/-- The body at any point: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

end RegionB

end Cert.Kernel.Hand

end
-- ==== Proof.KRun.lean ====
/-
  The whole run of @main: host operations, the first pallas_call, host operations, the second pallas_call. The contents
  of every unscoped buffer at each of the five boundaries are a fold from the launch memory: a stretch of host operations
  applies them; a pallas_call leaves each of its arrays at what its write-backs leave and every other buffer as it was.
  Each argument array walks back through the fold to its launch contents, and the result array is what the second
  pallas_call's write-backs leave.
-/
import proofs.«172828_j78623671320711_1_alg».proof.Proof.KRegionA
import proofs.«172828_j78623671320711_1_alg».proof.Proof.KRegionB
import proofs.«172828_j78623671320711_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the first pallas_call: its arrays at what its write-backs leave. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second stretch of host operations. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- After the second pallas_call. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-! ## The arguments end as launched: no host operation writes one, and a pallas_call only reads one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (U3 m ρ) c).arrAt_in 0 rfl _).trans (A_eq1 (U3 m ρ) c 0))
    _ = W2 m ρ c (Proc.devRef .tc main_arg0) := StableHlo.after_of_writes_sub hostOps1 _ hostOps1_writes (by decide)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat1 (U3 m ρ) c).arrAt_in 1 rfl _).trans (A_eq1 (U3 m ρ) c 1))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 3).trans (((dat1 (U3 m ρ) c).arrAt_in 3 rfl _).trans (A_eq1 (U3 m ρ) c 3))
    _ = W2 m ρ c (Proc.devRef .tc main_arg2) := StableHlo.after_of_writes_sub hostOps1 _ hostOps1_writes (by decide)
    _ = W1 m ρ c (Proc.devRef .tc main_arg2) := (W2_arr m ρ c 1).trans (((dat0 (U1 m ρ) c).arrAt_in 1 rfl _).trans (A_eq0 (U1 m ρ) c 1))
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 5).trans (((dat1 (U3 m ρ) c).arrAt_in 5 rfl _).trans (A_eq1 (U3 m ρ) c 5))
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 7).trans (((dat1 (U3 m ρ) c).arrAt_in 7 rfl _).trans (A_eq1 (U3 m ρ) c 7))
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 2).trans (((dat1 (U3 m ρ) c).arrAt_in 2 rfl _).trans (A_eq1 (U3 m ρ) c 2))
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-! ## The proof data family and the thread state -/

/-- Both pipelines' proof data, each at its pallas_call's entry contents. -/
def pd : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱r : Variants := Variants.none
abbrev Lr : GSem nD τ sig → Finset Unit := fun _ => ∅
abbrev lvr : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tlast (c : Dev nD) : sProp 𝕄 := iprop(StableHlo.held (c : Thread nD τ) (Pipeline.ucRefs τ sig) (W4 m ρ c) ∗ ∃ r, prngReg c r)

/-! ## The pallas_calls as segments -/

set_option backward.isDefEq.respectTransparency.types false in
/-- The first pallas_call over the thread state "every unscoped buffer at the boundary's contents, the generator register at
    some state, nothing owed": its arrays split out of the unscoped buffers at entry and put back at the exit contents. -/
def reg0 : Pipeline.RegionSeg (pcfgs (F := F)) adm (pd m ρ) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lr lvr 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pd m ρ) launch0.win launch0.arr_whole c
      ((pd m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pd m ρ) ((pd m ρ 0 c).share_full fun _ => rfl)
      (U1 m ρ c) (U2 m ρ c) ((pd m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state "every unscoped buffer at the boundary's contents, the generator register at
    some state, nothing owed": its arrays split out of the unscoped buffers at entry and put back at the exit contents. -/
def reg1 : Pipeline.RegionSeg (pcfgs (F := F)) adm (pd m ρ) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ Lr lvr 1 fun _ _ => rfl
  pre c := iprop(StableHlo.held (c : Thread nD τ) (Pipeline.ucRefs τ sig) (W3 m ρ c) ∗ Rr c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pd m ρ) launch1.win launch1.arr_whole c
      ((pd m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pd m ρ) ((pd m ρ 1 c).share_full fun _ => rfl)
      (U3 m ρ c) (U4 m ρ c) ((pd m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev rsegs : List (Pipeline.Seg (pcfgs (F := F)) adm (pd m ρ) () defs₀ 𝒱r Lr lvr) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (rsegs m ρ) := (main_chain c).trans (by chain_rfl)

set_option backward.isDefEq.respectTransparency.types false in
/-- THE RUN: from any memory with zero counters every weakly fair execution of @main terminates, nothing faulting, and
    every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pd m ρ) () cellOf_inj emb₁ defs₀ 𝒱r Lr lvr m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tlast m ρ)
    (hch := ⟨fun _ => .rfl, fun _ => .rfl, fun _ => .rfl, fun _ => .rfl, fun _ => .rfl⟩)
    (hinit := by
      refine Pipeline.initEach Lr lvr fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩) (run m ρ)

/-- The run with the result named: the result array ends at what the second pallas_call's write-backs leave, the
    arguments as launched. -/
theorem run_result : θ_run defs (onTc (τ := τ) (main (F := F))) ⟨m, fun _ => 0, ρ⟩ (fun r => ∀ c : Dev nD,
      r.2.mem ((c.tc : Thread nD τ).loc main_v11) = (dat1 (U3 m ρ) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v11 (by decide))).trans (W4_arr m ρ c 11),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩) (run m ρ)

end Cert.Kernel.Hand

end
-- ==== Proof.KIRegionA.lean ====
/-
  The first pallas_call's half of the run, at a parameter `V` (the buffer contents when the region is entered). Its body
  computes, from a [4096, 160] tile of rows, the weights and the bias, the least and the greatest of the tile's row-wise
  absolute sums, and keeps a running least and a running greatest in its two [1, 1] output blocks: the first grid point
  stores the tile's two values, every later point stores the least (greatest) of what the point before left and the tile's.
  The two blocks are written back after the last point only, so between points each holds what the body left.
-/
import proofs.«172828_j78623671320711_1_alg».proof.Proof.Gen.KernelIdeal.Launch
import proofs.«172828_j78623671320711_1_alg».proof.Proof.Gen.KernelIdeal.Skeleton
import proofs.«172828_j78623671320711_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section RegionA
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two control cases, decided over the grid -/

/-- The first branch (store the tile's values) is taken at the first point only, -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- and the second (fold the tile's values into the running ones) at every other point. -/
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two branches stores at every coordinate: neither output block is ever idle. -/
theorem live_aux : ∀ v : Fin 64,
    (!(Scalar.cmpi .ne (Scalar.extui (Scalar.cmpi .eq (BitVec.ofNat 32 v.val) 0#32)) 0#32 == 1#1)
      && !(Scalar.cmpi .ne (Scalar.extui (Scalar.cmpi .sgt (BitVec.ofNat 32 v.val) 0#32)) 0#32 == 1#1)) = false := by
  decide +kernel
theorem live3 (i : cfg0.grid.Coords) : cfg0.idle 3 i = false := live_aux (i 0)
theorem live4 (i : cfg0.grid.Coords) : cfg0.idle 4 i = false := live_aux (i 0)

/-! ## What the body leaves in the two output blocks -/

abbrev r11 : Rect S1x1 := (Rect.unit (s := S1x1) ![0, 0] S1x1.size inb_S1x1_S1x1_0_0)

/-- At the first point: the tile's least row sum, -/
def out3_A (x0 : Vec F S4096x160 .f32) (x1 : Vec F S160x128 .f32) (x2 : Vec F S1x128 .f32) : Vec F S1x1 .f32 := View.canon [⟨r11, k0_pay2 (View.ld x0 (Rect.unit (s := S4096x160) ![0, 0] S4096x160.size inb_S4096x160_S4096x160_0_0)) (View.ld x1 (Rect.unit (s := S160x128) ![0, 0] S160x128.size inb_S160x128_S160x128_0_0)) (View.ld x2 (Rect.unit (s := S1x128) ![0, 0] S1x128.size inb_S1x128_S1x128_0_0))⟩]
/-- and its greatest. -/
def out4_A (x0 : Vec F S4096x160 .f32) (x1 : Vec F S160x128 .f32) (x2 : Vec F S1x128 .f32) : Vec F S1x1 .f32 := View.canon [⟨r11, k0_pay3 (View.ld x0 (Rect.unit (s := S4096x160) ![0, 0] S4096x160.size inb_S4096x160_S4096x160_0_0)) (View.ld x1 (Rect.unit (s := S160x128) ![0, 0] S160x128.size inb_S160x128_S160x128_0_0)) (View.ld x2 (Rect.unit (s := S1x128) ![0, 0] S1x128.size inb_S1x128_S1x128_0_0))⟩]
/-- At a later point: the least of what the block held and the tile's least, -/
def out3_B (x0 : Vec F S4096x160 .f32) (x1 : Vec F S160x128 .f32) (x2 : Vec F S1x128 .f32) (xo : Vec F S1x1 .f32) : Vec F S1x1 .f32 := View.canon [⟨r11, k0_pay4 (View.ld x0 (Rect.unit (s := S4096x160) ![0, 0] S4096x160.size inb_S4096x160_S4096x160_0_0)) (View.ld x1 (Rect.unit (s := S160x128) ![0, 0] S160x128.size inb_S160x128_S160x128_0_0)) (View.ld x2 (Rect.unit (s := S1x128) ![0, 0] S1x128.size inb_S1x128_S1x128_0_0)) (View.ld xo r11)⟩]
/-- and the greatest of what the block held and the tile's greatest. -/
def out4_B (x0 : Vec F S4096x160 .f32) (x1 : Vec F S160x128 .f32) (x2 : Vec F S1x128 .f32) (xo : Vec F S1x1 .f32) : Vec F S1x1 .f32 := View.canon [⟨r11, k0_pay5 (View.ld x0 (Rect.unit (s := S4096x160) ![0, 0] S4096x160.size inb_S4096x160_S4096x160_0_0)) (View.ld x1 (Rect.unit (s := S160x128) ![0, 0] S160x128.size inb_S160x128_S160x128_0_0)) (View.ld x2 (Rect.unit (s := S1x128) ![0, 0] S1x128.size inb_S1x128_S1x128_0_0)) (View.ld xo r11)⟩]

theorem cover11 (p0 : Vec F S1x1 .f32) (y : S1x1.Idx) :
    ∃ pc ∈ ([⟨r11, p0⟩] : List (View.Piece (Elt F) S1x1 .f32)), y ∈ pc.1.set :=
  View.cover_of_tiled [⟨r11, p0⟩] S1x1.size (by rfl) y

/-! ## The body's triple, case by case -/

set_option maxHeartbeats 4000000 in
/-- First point: the inputs at `x·`, the output blocks at anything; the body leaves the tile's two values. -/
theorem sound_kernel0_A (c : Dev nD) (E : Set ℕ) (i : grid0.Coords) (arg1 : Memref sig .tc .vmem S4096x160 .f32) (harg1 : arg1.IsWhole) (arg2 : Memref sig .tc .vmem S160x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole)
    (hc1 : k0_cond1 i = 1#1) (hc2 : ¬k0_cond2 i = 1#1) (x0 : Vec F S4096x160 .f32) (x1 : Vec F S160x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_A x0 x1 x2) ∗ owns (c : Thread nD τ) arg5 fullShare (out4_A x0 x1 x2)) -∗ K ⟨⟩))
      ⊢ wp frame (wpE (defs₀ (F := F)) Variants.none c none) E (cc0__kernelA i arg1 harg1 arg2 harg2 arg3 harg3 arg4 harg4 arg5 harg5) K := by
  simp only [cc0__kernelA_eq_skeleton]; unfold cc0__kernelA_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover11 _)
  iexists _; isplitr
  swap; · iexact H4
  ipureintro
  exact View.read_writes_eq_canon _ _ _ (cover11 _)

set_option maxHeartbeats 4000000 in
/-- A later point: the inputs at `x·`, the output blocks at what the point before left; the body folds the tile's
    two values into them. -/
theorem sound_kernel0_B (c : Dev nD) (E : Set ℕ) (i : grid0.Coords) (arg1 : Memref sig .tc .vmem S4096x160 .f32) (harg1 : arg1.IsWhole) (arg2 : Memref sig .tc .vmem S160x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole)
    (hc1 : ¬k0_cond1 i = 1#1) (hc2 : k0_cond2 i = 1#1) (x0 : Vec F S4096x160 .f32) (x1 : Vec F S160x128 .f32) (x2 : Vec F S1x128 .f32) (xo3 xo4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4
        ∗ (iprop(owns (c : Thread nD τ) arg1 fullShare x0 ∗ owns (c : Thread nD τ) arg2 fullShare x1 ∗ owns (c : Thread nD τ) arg3 fullShare x2 ∗ owns (c : Thread nD τ) arg4 fullShare (out3_B x0 x1 x2 xo3) ∗ owns (c : Thread nD τ) arg5 fullShare (out4_B x0 x1 x2 xo4)) -∗ K ⟨⟩))
      ⊢ wp frame (wpE (defs₀ (F := F)) Variants.none c none) E (cc0__kernelA i arg1 harg1 arg2 harg2 arg3 harg3 arg4 harg4 arg5 harg5) K := by
  simp only [cc0__kernelA_eq_skeleton]; unfold cc0__kernelA_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover11 _)
  iexists _; isplitr
  swap; · iexact H4
  ipureintro
  exact View.read_writes_eq_canon _ _ _ (cover11 _)

/-! ## What the two blocks hold after each point -/

/-- The running pair (least, greatest) after the body at position `n`: the tile's own values at the first point, folded
    into what position `n - 1` left at every later one. -/
def outsAt0 (c : Dev nD) : (n : ℕ) → n < cfg0.N → Vec F S1x1 .f32 × Vec F S1x1 .f32
  | 0, hn => (out3_A (iblk0 V c 0 ⟨0, hn⟩) (iblk0 V c 1 ⟨0, hn⟩) (iblk0 V c 2 ⟨0, hn⟩),
              out4_A (iblk0 V c 0 ⟨0, hn⟩) (iblk0 V c 1 ⟨0, hn⟩) (iblk0 V c 2 ⟨0, hn⟩))
  | n + 1, hn =>
    (out3_B (iblk0 V c 0 ⟨n + 1, hn⟩) (iblk0 V c 1 ⟨n + 1, hn⟩) (iblk0 V c 2 ⟨n + 1, hn⟩) (outsAt0 c n (Nat.lt_of_succ_lt hn)).1,
     out4_B (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val = 0) :
    outsAt0 V c t.val t.isLt = (out3_A (iblk0 V c 0 t) (iblk0 V c 1 t) (iblk0 V c 2 t), out4_A (iblk0 V c 0 t) (iblk0 V c 1 t) (iblk0 V c 2 t)) := by
  obtain ⟨n, hn⟩ := t
  cases n with
  | zero => exact rfl
  | succ n => exact absurd h0 (Nat.succ_ne_zero n)

theorem outsAt0_B (c : Dev nD) (t : Fin cfg0.N) (h0 : t.val ≠ 0) :
    outsAt0 V c t.val t.isLt =
      (out3_B (iblk0 V c 0 t) (iblk0 V c 1 t) (iblk0 V c 2 t) (outsAt0 V c (t.val - 1) (Nat.lt_of_le_of_lt (Nat.sub_le _ _) t.isLt)).1,
       out4_B (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd rfl h0
  | succ n => exact rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a later point the least's block holds what the body left at the point before: it is not written back between
    (only after the last point), and the block is never idle. -/
theorem before0_3_B (c : Dev nD) (t : Fin cfg0.N) (h0 : t.val ≠ 0) (d) :
    (dat0 V c).before 3 t d = (outsAt0 V c (t.val - 1) (Nat.lt_of_le_of_lt (Nat.sub_le _ _) t.isLt)).1 := by
  have hN : t.val < 64 := lt_of_lt_of_eq t.isLt (show cfg0.N = 64 from N_0)
  rw [Dat.before_out_kept _ 3 rfl t h0 (Bool.eq_false_iff.mpr fun h => by have := (flush0_3 _).mp h; dsimp only at this; omega)
    live3 (fun _ _ => rfl)]
  dsimp only [dat0]
/-- The same for the greatest's block. -/
theorem before0_4_B (c : Dev nD) (t : Fin cfg0.N) (h0 : t.val ≠ 0) (d) :
    (dat0 V c).before 4 t d = (outsAt0 V c (t.val - 1) (Nat.lt_of_le_of_lt (Nat.sub_le _ _) t.isLt)).2 := by
  have hN : t.val < 64 := lt_of_lt_of_eq t.isLt (show cfg0.N = 64 from N_0)
  rw [Dat.before_out_kept _ 4 rfl t h0 (Bool.eq_false_iff.mpr fun h => by have := (flush0_4 _).mp h; dsimp only at this; omega)
    live4 (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' memrefs hold their blocks; at the first point the first case's triple applies, at a
    later one the second's, its output blocks found at what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [outsAt0_A V c t h0]
    iintro ⟨HΦ, Ho, ⟨%d0, H0⟩, ⟨%d1, H1⟩, ⟨%d2, H2⟩, ⟨%d3, H3⟩, ⟨%d4, H4⟩⟩
    iapply (sound_kernel0_A c Set.univ (grid0.coords t) _ _ _ _ _ _ _ _ _ _ ((hcond1 t).mpr h0) (fun h => (hcond2 t).mp h h0)
      (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt0_B V c t h0]
    simp only [before0_3_B V c t h0, before0_4_B V c t h0]
    iintro ⟨HΦ, Ho, ⟨%d0, H0⟩, ⟨%d1, H1⟩, ⟨%d2, H2⟩, ⟨%d3, H3⟩, ⟨%d4, H4⟩⟩
    iapply (sound_kernel0_B c Set.univ (grid0.coords t) _ _ _ _ _ _ _ _ _ _ (fun h => h0 ((hcond1 t).mp h)) ((hcond2 t).mpr h0)
      (iblk0 V c 0 t) (iblk0 V c 1 t) (iblk0 V c 2 t) _ _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point: the two output blocks are live everywhere, so what the body must leave
    in each is `after`. -/
theorem body_obligation0 (c : Dev nD) : BodyObligation (dat0 (F := F) V c) (defs₀ (F := F)) Variants.none () Set.univ := fun t => by
  rw [bigSep_W0, bigSep_W0]
  have e3 : idle0 3 (grid0.coords t) = false := live3 _
  have e4 : idle0 4 (grid0.coords t) = false := live4 _
  simp only [e3, e4]
  exact sound_body0 V c t

end RegionA

end Cert.KernelIdeal.Hand

end
-- ==== Proof.KIRegionB.lean ====
/-
  The second pallas_call's half of the run, at a parameter `V` (the buffer contents when the region is entered): its body
  loads eleven input blocks whole, computes one [4096, 10] tile and stores it whole, at every one of the 64 grid points.
  What the output's staging buffer holds after the body is the canon of that one store over the payload of the input
  blocks; every input's buffer holds its block at every point, fetched there or not.
-/
import proofs.«172828_j78623671320711_1_alg».proof.Proof.Gen.KernelIdeal.Launch
import proofs.«172828_j78623671320711_1_alg».proof.Proof.Gen.KernelIdeal.Skeleton
import proofs.«172828_j78623671320711_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section RegionB
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current staging buffer holds its block at every point, fetched there or not. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- The output's whole-block rectangle. -/
abbrev r1_out : Rect S4096x10 := (Rect.unit (s := S4096x10) ![0, 0] S4096x10.size inb_S4096x10_S4096x10_0_0)

/-- The output window's staging buffer after the body, from the input windows' blocks: its one store. -/
def out1_11 (x0 : Vec F S4096x160 .f32) (x1 : Vec F S4096x160 .f32) (x2 : Vec F S4096x128 .f32) (x3 : Vec F S160x128 .f32) (x4 : Vec F S1x128 .f32) (x5 : Vec F S160x128 .f32) (x6 : Vec F S1x128 .f32) (x7 : Vec F S128x10 .f32) (x8 : Vec F S1x10 .f32) (x9 : Vec F S1x128 .f32) (x10 : Vec F S1x1 .f32) : Vec F S4096x10 .f32 :=
  View.canon [⟨r1_out, k1_pay1 (k1_pay2 (View.ld x0 (Rect.unit (s := S4096x160) ![0, 0] S4096x160.size inb_S4096x160_S4096x160_0_0)) (View.ld x1 (Rect.unit (s := S4096x160) ![0, 0] S4096x160.size inb_S4096x160_S4096x160_0_0)) (View.ld x3 (Rect.unit (s := S160x128) ![0, 0] S160x128.size inb_S160x128_S160x128_0_0)) (View.ld x5 (Rect.unit (s := S160x128) ![0, 0] S160x128.size inb_S160x128_S160x128_0_0)) (View.ld x4 (Rect.unit (s := S1x128) ![0, 0] S1x128.size inb_S1x128_S1x128_0_0)) (View.ld x10 (Rect.unit (s := S1x1) ![0, 0] S1x1.size inb_S1x1_S1x1_0_0)) (View.ld x2 (Rect.unit (s := S4096x128) ![0, 0] S4096x128.size inb_S4096x128_S4096x128_0_0)) (View.ld x9 (Rect.unit (s := S1x128) ![0, 0] S1x128.size inb_S1x128_S1x128_0_0)) (View.ld x6 (Rect.unit (s := S1x128) ![0, 0] S1x128.size inb_S1x128_S1x128_0_0)) (View.ld x7 (Rect.unit (s := S128x10) ![0, 0] S128x10.size inb_S128x10_S128x10_0_0))) (View.ld x8 (Rect.unit (s := S1x10) ![0, 0] S1x10.size inb_S1x10_S1x10_0_0))⟩]

/-- The one store covers the block. -/
theorem cover1_11 (p0 : Vec F S4096x10 .f32) (y : S4096x10.Idx) :
    ∃ pc ∈ ([⟨r1_out, p0⟩] : List (View.Piece (Elt F) S4096x10 .f32)), y ∈ pc.1.set :=
  View.cover_of_tiled [⟨r1_out, p0⟩] S4096x10.size (by rfl) y

set_option maxHeartbeats 4000000 in
/-- The body on whole staging memrefs, the inputs' at contents `x·` and the output's at anything, runs to the
    continuation holding the inputs' as they were and the output's at `out1_11` of them. -/
theorem sound_kernel1 (c : Dev nD) (E : Set ℕ) (i : grid1.Coords) (arg1 : Memref sig .tc .vmem S4096x160 .f32) (harg1 : arg1.IsWhole) (arg2 : Memref sig .tc .vmem S4096x160 .f32) (harg2 : arg2.IsWhole) (arg3 : Memref sig .tc .vmem S4096x128 .f32) (harg3 : arg3.IsWhole) (arg4 : Memref sig .tc .vmem S160x128 .f32) (harg4 : arg4.IsWhole) (arg5 : Memref sig .tc .vmem S1x128 .f32) (harg5 : arg5.IsWhole) (arg6 : Memref sig .tc .vmem S160x128 .f32) (harg6 : arg6.IsWhole) (arg7 : Memref sig .tc .vmem S1x128 .f32) (harg7 : arg7.IsWhole) (arg8 : Memref sig .tc .vmem S128x10 .f32) (harg8 : arg8.IsWhole) (arg9 : Memref sig .tc .vmem S1x10 .f32) (harg9 : arg9.IsWhole) (arg10 : Memref sig .tc .vmem S1x128 .f32) (harg10 : arg10.IsWhole) (arg11 : Memref sig .tc .vmem S1x1 .f32) (harg11 : arg11.IsWhole) (arg12 : Memref sig .tc .vmem S4096x10 .f32) (harg12 : arg12.IsWhole)
    (x0 : Vec F S4096x160 .f32) (x1 : Vec F S4096x160 .f32) (x2 : Vec F S4096x128 .f32) (x3 : Vec F S160x128 .f32) (x4 : Vec F S1x128 .f32) (x5 : Vec F S160x128 .f32) (x6 : Vec F S1x128 .f32) (x7 : Vec F S128x10 .f32) (x8 : Vec F S1x10 .f32) (x9 : Vec F S1x128 .f32) (x10 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out1_11 x0 x1 x2 x3 x4 x5 x6 x7 x8 x9 x10)) -∗ K ⟨⟩))
      ⊢ wp frame (wpE (defs₀ (F := F)) Variants.none c none) E (cc1__kernelB i arg1 harg1 arg2 harg2 arg3 harg3 arg4 harg4 arg5 harg5 arg6 harg6 arg7 harg7 arg8 harg8 arg9 harg9 arg10 harg10 arg11 harg11 arg12 harg12) K := by
  simp only [cc1__kernelB_eq_skeleton]; unfold cc1__kernelB_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover1_11 _)

/-- The proof data of the second pipeline on core `c`: the arrays as the region finds them; after the body each input's
    buffer at its block and the output's at `out1_11` of the input blocks; the untouched scoped rest and generator
    register as invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 1000000 in
/-- The body at any point: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

end RegionB

end Cert.KernelIdeal.Hand

end
-- ==== Proof.KIRun.lean ====
/-
  The whole run of @main: host operations, the first pallas_call, host operations, the second pallas_call. The contents
  of every unscoped buffer at each of the five boundaries are a fold from the launch memory: a stretch of host operations
  applies them; a pallas_call leaves each of its arrays at what its write-backs leave and every other buffer as it was.
  Each argument array walks back through the fold to its launch contents, and the result array is what the second
  pallas_call's write-backs leave.
-/
import proofs.«172828_j78623671320711_1_alg».proof.Proof.KIRegionA
import proofs.«172828_j78623671320711_1_alg».proof.Proof.KIRegionB
import proofs.«172828_j78623671320711_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the first pallas_call: its arrays at what its write-backs leave. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second stretch of host operations. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- After the second pallas_call. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-! ## The arguments end as launched: no host operation writes one, and a pallas_call only reads one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (U3 m ρ) c).arrAt_in 0 rfl _).trans (A_eq1 (U3 m ρ) c 0))
    _ = W2 m ρ c (Proc.devRef .tc main_arg0) := StableHlo.after_of_writes_sub hostOps1 _ hostOps1_writes (by decide)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat1 (U3 m ρ) c).arrAt_in 1 rfl _).trans (A_eq1 (U3 m ρ) c 1))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 3).trans (((dat1 (U3 m ρ) c).arrAt_in 3 rfl _).trans (A_eq1 (U3 m ρ) c 3))
    _ = W2 m ρ c (Proc.devRef .tc main_arg2) := StableHlo.after_of_writes_sub hostOps1 _ hostOps1_writes (by decide)
    _ = W1 m ρ c (Proc.devRef .tc main_arg2) := (W2_arr m ρ c 1).trans (((dat0 (U1 m ρ) c).arrAt_in 1 rfl _).trans (A_eq0 (U1 m ρ) c 1))
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 5).trans (((dat1 (U3 m ρ) c).arrAt_in 5 rfl _).trans (A_eq1 (U3 m ρ) c 5))
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 7).trans (((dat1 (U3 m ρ) c).arrAt_in 7 rfl _).trans (A_eq1 (U3 m ρ) c 7))
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 2).trans (((dat1 (U3 m ρ) c).arrAt_in 2 rfl _).trans (A_eq1 (U3 m ρ) c 2))
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-! ## The proof data family and the thread state -/

/-- Both pipelines' proof data, each at its pallas_call's entry contents. -/
def pd : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱r : Variants := Variants.none
abbrev Lr : GSem nD τ sig → Finset Unit := fun _ => ∅
abbrev lvr : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tlast (c : Dev nD) : sProp 𝕄 := iprop(StableHlo.held (c : Thread nD τ) (Pipeline.ucRefs τ sig) (W4 m ρ c) ∗ ∃ r, prngReg c r)

/-! ## The pallas_calls as segments -/

set_option backward.isDefEq.respectTransparency.types false in
/-- The first pallas_call over the thread state "every unscoped buffer at the boundary's contents, the generator register at
    some state, nothing owed": its arrays split out of the unscoped buffers at entry and put back at the exit contents. -/
def reg0 : Pipeline.RegionSeg (pcfgs (F := F)) adm (pd m ρ) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lr lvr 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pd m ρ) launch0.win launch0.arr_whole c
      ((pd m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pd m ρ) ((pd m ρ 0 c).share_full fun _ => rfl)
      (U1 m ρ c) (U2 m ρ c) ((pd m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state "every unscoped buffer at the boundary's contents, the generator register at
    some state, nothing owed": its arrays split out of the unscoped buffers at entry and put back at the exit contents. -/
def reg1 : Pipeline.RegionSeg (pcfgs (F := F)) adm (pd m ρ) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ Lr lvr 1 fun _ _ => rfl
  pre c := iprop(StableHlo.held (c : Thread nD τ) (Pipeline.ucRefs τ sig) (W3 m ρ c) ∗ Rr c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pd m ρ) launch1.win launch1.arr_whole c
      ((pd m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pd m ρ) ((pd m ρ 1 c).share_full fun _ => rfl)
      (U3 m ρ c) (U4 m ρ c) ((pd m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev rsegs : List (Pipeline.Seg (pcfgs (F := F)) adm (pd m ρ) () defs₀ 𝒱r Lr lvr) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (rsegs m ρ) := (main_chain c).trans (by chain_rfl)

set_option backward.isDefEq.respectTransparency.types false in
/-- THE RUN: from any memory with zero counters every weakly fair execution of @main terminates, nothing faulting, and
    every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pd m ρ) () cellOf_inj emb₁ defs₀ 𝒱r Lr lvr m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tlast m ρ)
    (hch := ⟨fun _ => .rfl, fun _ => .rfl, fun _ => .rfl, fun _ => .rfl, fun _ => .rfl⟩)
    (hinit := by
      refine Pipeline.initEach Lr lvr fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩) (run m ρ)

/-- The run with the result named: the result array ends at what the second pallas_call's write-backs leave, the
    arguments as launched. -/
theorem run_result : θ_run defs (onTc (τ := τ) (main (F := F))) ⟨m, fun _ => 0, ρ⟩ (fun r => ∀ c : Dev nD,
      r.2.mem ((c.tc : Thread nD τ).loc main_v11) = (dat1 (U3 m ρ) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v11 (by decide))).trans (W4_arr m ρ c 11),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩) (run m ρ)

end Cert.KernelIdeal.Hand

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.LibLayoutCol.lean ====
/-
  Two layout operations read at an index written by coordinates, for a column kept after a reduction along the
  rows' second axis: a vector of length a viewed as an [a, 1] column, and an [a, 1] column repeated along b columns.
  They complete the leading-unit-axis forms of the library's ValueLayout file.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KITileOps.lean ====
/-
  The arithmetic of one tile read at an index, over the extended reals: a matrix product into a zero accumulator is a sum
  over the contracted coordinate; a [1, n] row broadcast down the rows reads its one row; the lane sum of absolute values
  is a sum over the 128 lanes; the least and greatest over the 4096 rows of a tile are folds of min and max.
-/
import proofs.«172828_j78623671320711_1_alg».proof.Proof.Gen.KernelIdeal.Skeleton
import proofs.«172828_j78623671320711_1_alg».proof.Proof.Gen.ReferenceIdeal.Read
import proofs.«172828_j78623671320711_1_alg».proof.Proof.LibPlainDot
import proofs.«172828_j78623671320711_1_alg».proof.Proof.LibLayoutCol
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

abbrev D160 := dot_S4096x160_S160x128_S4096x128_1_0_0_1_n_n
abbrev D128 := dot_S4096x128_S128x10_S4096x10_1_0_0_1_n_n

open Idealize.ShloMosaic Idealize.ShloMosaic.ValueIdx
open Cert.KernelIdeal Cert.KernelIdeal.Gen

theorem D160_lhs0 (i : S4096x128.Idx) (q : D160.contr.Idx) : (D160.lhsIdx i q 0).val = (i 0).val := by
  unfold DotDims.lhsIdx
  rw [dif_neg (show ¬(0 : Fin S4096x160.rank) ∈ D160.lhsBatch by decide), dif_pos (show (0 : Fin S4096x160.rank) ∈ D160.lhsNonContracting by decide)]
  rfl
theorem D160_lhs1 (i : S4096x128.Idx) (q : D160.contr.Idx) : (D160.lhsIdx i q 1).val = (q ⟨0, by decide⟩).val :=
  D160.lhsIdx_val_of_single rfl i q
theorem D160_rhs0 (i : S4096x128.Idx) (q : D160.contr.Idx) : (D160.rhsIdx i q 0).val = (q ⟨0, by decide⟩).val :=
  D160.rhsIdx_val_of_single rfl i q
theorem D160_rhs1 (i : S4096x128.Idx) (q : D160.contr.Idx) : (D160.rhsIdx i q 1).val = (i 1).val := by
  unfold DotDims.rhsIdx
  rw [dif_neg (show ¬(1 : Fin S160x128.rank) ∈ D160.rhsBatch by decide), dif_pos (show (1 : Fin S160x128.rank) ∈ D160.rhsNonContracting by decide)]
  rfl

theorem D128_lhs0 (i : S4096x10.Idx) (q : D128.contr.Idx) : (D128.lhsIdx i q 0).val = (i 0).val := by
  unfold DotDims.lhsIdx
  rw [dif_neg (show ¬(0 : Fin S4096x128.rank) ∈ D128.lhsBatch by decide), dif_pos (show (0 : Fin S4096x128.rank) ∈ D128.lhsNonContracting by decide)]
  rfl
theorem D128_lhs1 (i : S4096x10.Idx) (q : D128.contr.Idx) : (D128.lhsIdx i q 1).val = (q ⟨0, by decide⟩).val :=
  D128.lhsIdx_val_of_single rfl i q
theorem D128_rhs0 (i : S4096x10.Idx) (q : D128.contr.Idx) : (D128.rhsIdx i q 0).val = (q ⟨0, by decide⟩).val :=
  D128.rhsIdx_val_of_single rfl i q
theorem D128_rhs1 (i : S4096x10.Idx) (q : D128.contr.Idx) : (D128.rhsIdx i q 1).val = (i 1).val := by
  unfold DotDims.rhsIdx
  rw [dif_neg (show ¬(1 : Fin S128x10.rank) ∈ D128.rhsBatch by decide), dif_pos (show (1 : Fin S128x10.rank) ∈ D128.rhsNonContracting by decide)]
  rfl

/-- Entry (p, k) of a [4096, 160] x [160, 128] product into a zero accumulator: the sum over the 160 contracted coordinates
    (a change of float format is the identity here). -/
theorem mm160 (a : FVec Ideal S4096x160 .f32) (b : FVec Ideal S160x128 .f32) (p : Fin 4096) (k : Fin 128) :
    matmul D160 none (truncf .bf16 a bitsLt_bf16_f32) (truncf .bf16 b bitsLt_bf16_f32) (constant S4096x128 .f32 0x00000000#32) (ix2 p k)
      = ∑ j : Fin 160, a (ix2 p j) * b (ix2 j k) :=
  Cert.LibPlainDot.matmul_zero_apply D160 none 160 rfl rfl _ _ (ix2 p k) (fun j => ix2 p j) (fun j => ix2 j k)
    (fun c => funext fun ax => Fin.ext (by
      match ax with
      | ⟨0, _⟩ => exact D160_lhs0 (ix2 p k) c
      | ⟨1, _⟩ => exact D160_lhs1 (ix2 p k) c))
    (fun c => funext fun ax => Fin.ext (by
      match ax with
      | ⟨0, _⟩ => exact D160_rhs0 (ix2 p k) c
      | ⟨1, _⟩ => exact D160_rhs1 (ix2 p k) c))

/-- Entry (p, q) of a [4096, 128] x [128, 10] product into a zero accumulator. -/
theorem mm128 (a : FVec Ideal S4096x128 .f32) (b : FVec Ideal S128x10 .f32) (p : Fin 4096) (q : Fin 10) :
    matmul D128 none (truncf .bf16 a bitsLt_bf16_f32) (truncf .bf16 b bitsLt_bf16_f32) (constant S4096x10 .f32 0x00000000#32) (ix2 p q)
      = ∑ k : Fin 128, a (ix2 p k) * b (ix2 k q) :=
  Cert.LibPlainDot.matmul_zero_apply D128 none 128 rfl rfl _ _ (ix2 p q) (fun k => ix2 p k) (fun k => ix2 k q)
    (fun c => funext fun ax => Fin.ext (by
      match ax with
      | ⟨0, _⟩ => exact D128_lhs0 (ix2 p q) c
      | ⟨1, _⟩ => exact D128_lhs1 (ix2 p q) c))
    (fun c => funext fun ax => Fin.ext (by
      match ax with
      | ⟨0, _⟩ => exact D128_rhs0 (ix2 p q) c
      | ⟨1, _⟩ => exact D128_rhs1 (ix2 p q) c))

/-- A [1, 128] row, broadcast down 4096 rows, read at (p, k). -/
theorem brow128 (v : FVec Ideal S1x128 .f32) (p : Fin 4096) (k : Fin 128) :
    broadcastTo S4096x128 (shapeCast S1x128 v shapeCasts_S1x128_S1x128) broadcasts_S1x128_S4096x128 (ix2 p k) = v (ix2 (0 : Fin 1) k) := by
  rw [shapeCast_self]
  exact broadcastTo_1b_ab_apply v _ p k

/-- A [1, 10] row, broadcast down 4096 rows, read at (p, q). -/
theorem brow10 (v : FVec Ideal S1x10 .f32) (p : Fin 4096) (q : Fin 10) :
    broadcastTo S4096x10 (shapeCast S1x10 v shapeCasts_S1x10_S1x10) broadcasts_S1x10_S4096x10 (ix2 p q) = v (ix2 (0 : Fin 1) q) := by
  rw [shapeCast_self]
  exact broadcastTo_1b_ab_apply v _ p q

/-! ## The first kernel's payloads -/

/-- The tile's row-wise sum of absolute values at row p: the sum over the 128 lanes of |(row p of x) · (column k of W) + b k|. -/
theorem pay1_apply (v0 : FVec Ideal S4096x160 .f32) (v2 : FVec Ideal S160x128 .f32) (v5 : FVec Ideal S1x128 .f32) (p : Fin 4096) (u : Fin 1) :
    k0_pay1 (F := Ideal) v0 v2 v5 (ix2 p u)
      = ∑ k : Fin 128, FloatOps.absf (F := Ideal) (φ := .f32) ((∑ j : Fin 160, v0 (ix2 p j) * v2 (ix2 j k)) + v5 (ix2 (0 : Fin 1) k)) := by
  unfold k0_pay1
  rw [shapeCast_a_a1_apply]
  refine (Ideal.multiReduction_add_single _ 0x00000000#32 reduces_S4096x128_S4096 _ _ (ix1 p)).trans ?_
  show (∑ k : Fin 128, (absf (addf _ _)) (reduces_S4096x128_S4096.lift (ix1 p) k)) = _
  refine Finset.sum_congr rfl fun k _ => ?_
  have e : reduces_S4096x128_S4096.lift (ix1 p) k = ix2 p k :=
    funext fun a => Fin.ext (by match a with | ⟨0, _⟩ => rfl | ⟨1, _⟩ => rfl)
  rw [e]
  show FloatOps.absf (addf _ _ (ix2 p k)) = _
  rw [addf_apply, mm160, brow128]

/-- The tile's least row value: the fold of min, from the reduction's initial value, over the 4096 rows. -/
theorem pay2_apply (v0 : FVec Ideal S4096x160 .f32) (v2 : FVec Ideal S160x128 .f32) (v5 : FVec Ideal S1x128 .f32) :
    k0_pay2 (F := Ideal) v0 v2 v5 (ix2 (0 : Fin 1) (0 : Fin 1))
      = (Finset.univ : Finset (Fin 4096)).fold min (Ideal.ofBits .f32 0x7F800000#32) (fun p => k0_pay1 (F := Ideal) v0 v2 v5 (ix2 p (0 : Fin 1))) := by
  unfold k0_pay2
  rw [shapeCast_a_a1_apply]
  generalize k0_pay1 (F := Ideal) v0 v2 v5 = y
  refine (multiReduction_minimumf_eq_fold y 0x7F800000#32 reduces_S4096x1_S1 _ _ (ix1 (0 : Fin 1))).trans ?_
  refine (reduces_S4096x1_S1.fold_filter_drop_single _ _ y (ix1 (0 : Fin 1))).trans ?_
  have ef : (y ∘ reduces_S4096x1_S1.lift (ix1 (0 : Fin 1))) = fun p : Fin 4096 => y (ix2 p (0 : Fin 1)) :=
    funext fun p => congrArg y (funext fun a => Fin.ext (by match a with | ⟨0, _⟩ => rfl | ⟨1, _⟩ => rfl))
  rw [ef]
  rfl

/-- The tile's greatest row value: the fold of max over the 4096 rows. -/
theorem pay3_apply (v0 : FVec Ideal S4096x160 .f32) (v2 : FVec Ideal S160x128 .f32) (v5 : FVec Ideal S1x128 .f32) :
    k0_pay3 (F := Ideal) v0 v2 v5 (ix2 (0 : Fin 1) (0 : Fin 1))
      = (Finset.univ : Finset (Fin 4096)).fold max (Ideal.ofBits .f32 0xFF800000#32) (fun p => k0_pay1 (F := Ideal) v0 v2 v5 (ix2 p (0 : Fin 1))) := by
  unfold k0_pay3
  rw [shapeCast_a_a1_apply]
  generalize k0_pay1 (F := Ideal) v0 v2 v5 = y
  refine (multiReduction_maximumf_eq_fold y 0xFF800000#32 reduces_S4096x1_S1 _ _ (ix1 (0 : Fin 1))).trans ?_
  refine (reduces_S4096x1_S1.fold_filter_drop_single _ _ y (ix1 (0 : Fin 1))).trans ?_
  have ef : (y ∘ reduces_S4096x1_S1.lift (ix1 (0 : Fin 1))) = fun p : Fin 4096 => y (ix2 p (0 : Fin 1)) :=
    funext fun p => congrArg y (funext fun a => Fin.ext (by match a with | ⟨0, _⟩ => rfl | ⟨1, _⟩ => rfl))
  rw [ef]
  rfl

/-- The fold step: the least of what the block held and the tile's least. -/
theorem pay4_apply (v0 : FVec Ideal S4096x160 .f32) (v2 : FVec Ideal S160x128 .f32) (v5 : FVec Ideal S1x128 .f32) (v22 : FVec Ideal S1x1 .f32) (i : S1x1.Idx) :
    k0_pay4 (F := Ideal) v0 v2 v5 v22 i = min (v22 i) (k0_pay2 (F := Ideal) v0 v2 v5 i) := by
  unfold k0_pay4
  rw [minimumf_apply, shapeCast_self]

/-- The fold step: the greatest of what the block held and the tile's greatest. -/
theorem pay5_apply (v0 : FVec Ideal S4096x160 .f32) (v2 : FVec Ideal S160x128 .f32) (v5 : FVec Ideal S1x128 .f32) (v26 : FVec Ideal S1x1 .f32) (i : S1x1.Idx) :
    k0_pay5 (F := Ideal) v0 v2 v5 v26 i = max (v26 i) (k0_pay3 (F := Ideal) v0 v2 v5 i) := by
  unfold k0_pay5
  rw [maximumf_apply, shapeCast_self]

/-! ## The second kernel's payload -/

/-- The one entry of a [1, 1] block, extracted as a scalar. -/
theorem extract00 (v : FVec Ideal S1x1 .f32) : extractAt ![0, 0] v inpos_S1x1_p0_0 = v (ix2 (0 : Fin 1) (0 : Fin 1)) :=
  congrArg v (funext fun a => Fin.ext (by match a with | ⟨0, _⟩ => rfl | ⟨1, _⟩ => rfl))

/-- Entry (p, q) of the output tile: the head product over the 128 server inputs of row p — each the least of client 1's
    noised and masked pre-activation and client 2's pre-activation — plus the head's bias. -/
theorem payB_apply (v0 v2 : FVec Ideal S4096x160 .f32) (v4 v6 : FVec Ideal S160x128 .f32) (v9 : FVec Ideal S1x128 .f32) (v13 : FVec Ideal S1x1 .f32)
    (v15 : FVec Ideal S4096x128 .f32) (v19 v24 : FVec Ideal S1x128 .f32) (v30 : FVec Ideal S128x10 .f32) (v33 : FVec Ideal S1x10 .f32) (p : Fin 4096) (q : Fin 10) :
    k1_pay1 (F := Ideal) (k1_pay2 (F := Ideal) v0 v2 v4 v6 v9 v13 v15 v19 v24 v30) v33 (ix2 p q)
      = (∑ k : Fin 128,
          min ((((∑ j : Fin 160, v0 (ix2 p j) * v4 (ix2 j k)) + v9 (ix2 (0 : Fin 1) k)) + v15 (ix2 p k) * v13 (ix2 (0 : Fin 1) (0 : Fin 1))) * v19 (ix2 (0 : Fin 1) k))
              ((∑ j : Fin 160, v2 (ix2 p j) * v6 (ix2 j k)) + v24 (ix2 (0 : Fin 1) k))
            * v30 (ix2 k q))
        + v33 (ix2 (0 : Fin 1) q) := by
  unfold k1_pay1 k1_pay2
  rw [addf_apply, mm128, brow10]
  refine congrArg (· + _) (Finset.sum_congr rfl fun k _ => ?_)
  refine congrArg (· * _) ?_
  rw [minimumf_apply, mulf_apply, addf_apply, addf_apply, addf_apply, mulf_apply, mm160, mm160, brow128, brow128, brow128, broadcast_apply, extract00]

end Cert.KernelIdeal.Tile

end
-- ==== Proof.LibFoldTiles.lean ====
/-
  A least (greatest) value taken tile by tile. A sequence N 0, N 1, … is cut into consecutive tiles of b entries; the
  running value starts as the fold of min (max) from T over tile 0 and at each later tile is the min (max) of what it was
  and the fold from T over that tile. After tile t it is the fold from T over the first (t + 1) * b entries: both are
  characterised by the same lower (upper) bounds, whatever the initial value T.
-/
import Mathlib.Data.Finset.Fold
import Mathlib.Data.Fintype.Basic
import Mathlib.Order.Lattice
import Mathlib.Tactic.Ring

namespace Cert.LibFoldTiles

variable {α : Type*} [LinearOrder α]

/-- The fold of min from T over tile t of N. -/
def tileMin (T : α) (b : ℕ) (N : ℕ → α) (t : ℕ) : α :=
  (Finset.univ : Finset (Fin b)).fold min T (fun p => N (t * b + p.val))

/-- The fold of max from T over tile t of N. -/
def tileMax (T : α) (b : ℕ) (N : ℕ → α) (t : ℕ) : α :=
  (Finset.univ : Finset (Fin b)).fold max T (fun p => N (t * b + p.val))

/-- The running least after tile t. -/
def runMin (T : α) (b : ℕ) (N : ℕ → α) : ℕ → α
  | 0 => tileMin T b N 0
  | t + 1 => min (runMin T b N t) (tileMin T b N (t + 1))

/-- The running greatest after tile t. -/
def runMax (T : α) (b : ℕ) (N : ℕ → α) : ℕ → α
  | 0 => tileMax T b N 0
  | t + 1 => max (runMax T b N t) (tileMax T b N (t + 1))

theorem le_tileMin_iff (T : α) (b : ℕ) (N : ℕ → α) (t : ℕ) (c : α) :
    c ≤ tileMin T b N t ↔ c ≤ T ∧ ∀ p, p < b → c ≤ N (t * b + p) := by
  unfold tileMin
  rw [Finset.le_fold_min]
  exact and_congr Iff.rfl ⟨fun h p hp => h ⟨p, hp⟩ (Finset.mem_univ _), fun h p _ => h p.val p.isLt⟩

theorem tileMax_le_iff (T : α) (b : ℕ) (N : ℕ → α) (t : ℕ) (c : α) :
    tileMax T b N t ≤ c ↔ T ≤ c ∧ ∀ p, p < b → N (t * b + p) ≤ c := by
  unfold tileMax
  rw [Finset.fold_max_le]
  exact and_congr Iff.rfl ⟨fun h p hp => h ⟨p, hp⟩ (Finset.mem_univ _), fun h p _ => h p.val p.isLt⟩

private theorem split_range (b t : ℕ) (P : ℕ → Prop) :
    (∀ r, r < (t + 1 + 1) * b → P r) ↔ (∀ r, r < (t + 1) * b → P r) ∧ ∀ p, p < b → P ((t + 1) * b + p) := by
  have e : (t + 1 + 1) * b = (t + 1) * b + b := by ring
  rw [e]
  generalize (t + 1) * b = B
  constructor
  · exact fun h => ⟨fun r hr => h r (by omega), fun p hp => h (B + p) (by omega)⟩
  · rintro ⟨h1, h2⟩ r hr
    by_cases hlt : r < B
    · exact h1 r hlt
    · have := h2 (r - B) (by omega)
      rwa [show B + (r - B) = r by omega] at this

/-- The lower bounds of the running least after tile t are those of T and of the first (t + 1) * b entries. -/
theorem le_runMin_iff (T : α) (b : ℕ) (N : ℕ → α) (t : ℕ) (c : α) :
    c ≤ runMin T b N t ↔ c ≤ T ∧ ∀ r, r < (t + 1) * b → c ≤ N r := by
  induction t with
  | zero =>
    show c ≤ tileMin T b N 0 ↔ _
    rw [le_tileMin_iff]
    simp only [Nat.zero_mul, Nat.zero_add, Nat.one_mul]
  | succ t ih =>
    show c ≤ min (runMin T b N t) (tileMin T b N (t + 1)) ↔ _
    rw [le_min_iff, ih, le_tileMin_iff, split_range b t (fun r => c ≤ N r)]
    tauto

/-- The upper bounds of the running greatest after tile t. -/
theorem runMax_le_iff (T : α) (b : ℕ) (N : ℕ → α) (t : ℕ) (c : α) :
    runMax T b N t ≤ c ↔ T ≤ c ∧ ∀ r, r < (t + 1) * b → N r ≤ c := by
  induction t with
  | zero =>
    show tileMax T b N 0 ≤ c ↔ _
    rw [tileMax_le_iff]
    simp only [Nat.zero_mul, Nat.zero_add, Nat.one_mul]
  | succ t ih =>
    show max (runMax T b N t) (tileMax T b N (t + 1)) ≤ c ↔ _
    rw [max_le_iff, ih, tileMax_le_iff, split_range b t (fun r => N r ≤ c)]
    tauto

/-- After the last tile the running least is the fold of min from T over the whole range. -/
theorem runMin_eq_fold (T : α) (b : ℕ) (N : ℕ → α) (t n : ℕ) (hn : n = (t + 1) * b) :
    runMin T b N t = (Finset.univ : Finset (Fin n)).fold min T (fun R => N R.val) := by
  subst hn
  refine eq_of_forall_le_iff fun c => ?_
  rw [le_runMin_iff, Finset.le_fold_min]
  exact and_congr Iff.rfl ⟨fun h R _ => h R.val R.isLt, fun h r hr => h ⟨r, hr⟩ (Finset.mem_univ _)⟩

/-- After the last tile the running greatest is the fold of max from T over the whole range. -/
theorem runMax_eq_fold (T : α) (b : ℕ) (N : ℕ → α) (t n : ℕ) (hn : n = (t + 1) * b) :
    runMax T b N t = (Finset.univ : Finset (Fin n)).fold max T (fun R => N R.val) := by
  subst hn
  refine eq_of_forall_ge_iff fun c => ?_
  rw [runMax_le_iff, Finset.fold_max_le]
  exact and_congr Iff.rfl ⟨fun h R _ => h R.val R.isLt, fun h r hr => h ⟨r, hr⟩ (Finset.mem_univ _)⟩

end Cert.LibFoldTiles
-- ==== Proof.KIValueA.lean ====
/-
  What the first pallas_call leaves, read as values over the extended reals. Row r of the [262144, 160] array has a norm:
  the sum over the 128 lanes of |(row r) · (column k of the weights) + bias k|. Tile t holds rows t * 4096 … t * 4096 + 4095,
  so after grid point n the two [1, 1] blocks hold the running least and the running greatest of the norms of the first
  (n + 1) * 4096 rows, and the two result arrays, written back once after the last point, end holding those of all rows.
-/
import proofs.«172828_j78623671320711_1_alg».proof.Proof.KIRegionA
import proofs.«172828_j78623671320711_1_alg».proof.Proof.KITileOps
import proofs.«172828_j78623671320711_1_alg».proof.Proof.LibFoldTiles
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Tile Cert.LibFoldTiles

section ValueA
variable (V : (c : Dev nD) → (b : Ref sig .tc) → Buf (Elt Ideal) ((c : Thread nD τ).loc b))

theorem hz2 : (![0, 0] : Fin 2 → Nat) = fun _ => 0 := funext fun a => by fin_cases a <;> rfl

/-- The printed index maps of the first pallas_call, decided over the grid: the rows' window moves one tile per point,
    every other window stays at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem lt64 (t : Fin cfg0.N) : t.val < 64 := lt_of_lt_of_eq t.isLt (show cfg0.N = 64 from N_0)

/-- Row p of tile t is row t * 4096 + p of the array. -/
def rowOf (t : Fin cfg0.N) (p : Fin 4096) : Fin 262144 := ⟨t.val * 4096 + p.val, by have := lt64 t; have := p.isLt; omega⟩

/-- The rows' block at point t, read at (p, j). -/
theorem iblk0_0_apply (c : Dev nD) (t : Fin cfg0.N) (p : Fin 4096) (j : Fin 160) :
    iblk0 V c 0 t (ix2 p j) = V c main_arg0 (ix2 (rowOf t p) j) := by
  unfold iblk0
  rw [View.read_apply]
  show V c main_arg0 (((cfg0.win 0).blk t).view.emb (ix2 p j)) = V c main_arg0 _
  obtain ⟨e0, e1, -⟩ := idx_facts0 t
  refine congrArg (V c main_arg0) (funext fun a => Fin.ext ?_)
  match a with
  | ⟨0, _⟩ => show win0_0.index t (0 : Fin 2) * 4096 + 1 * p.val = t.val * 4096 + p.val; omega
  | ⟨1, _⟩ => show win0_0.index t (1 : Fin 2) * 160 + 1 * j.val = j.val; omega

/-- The weights' block at any point is the whole array. -/
theorem iblk0_1_apply (c : Dev nD) (t : Fin cfg0.N) (j : Fin 160) (k : Fin 128) :
    iblk0 V c 1 t (ix2 j k) = V c main_arg2 (ix2 j k) := by
  unfold iblk0
  rw [View.read_apply]
  show V c main_arg2 (((cfg0.win 1).blk t).view.emb (ix2 j k)) = V c main_arg2 _
  obtain ⟨-, -, e0, e1, -⟩ := idx_facts0 t
  refine congrArg (V c main_arg2) (funext fun a => Fin.ext ?_)
  match a with
  | ⟨0, _⟩ => show win0_1.index t (0 : Fin 2) * 160 + 1 * j.val = j.val; omega
  | ⟨1, _⟩ => show win0_1.index t (1 : Fin 2) * 128 + 1 * k.val = k.val; omega

/-- The bias row's block at any point is the whole [1, 128] array. -/
theorem iblk0_2_apply (c : Dev nD) (t : Fin cfg0.N) (u : Fin 1) (k : Fin 128) :
    iblk0 V c 2 t (ix2 u k) = V c main_v0 (ix2 u k) := by
  unfold iblk0
  rw [View.read_apply]
  show V c main_v0 (((cfg0.win 2).blk t).view.emb (ix2 u k)) = V c main_v0 _
  obtain ⟨-, -, -, -, e0, e1, -⟩ := idx_facts0 t
  refine congrArg (V c main_v0) (funext fun a => Fin.ext ?_)
  match a with
  | ⟨0, _⟩ => show win0_2.index t (0 : Fin 2) * 1 + 1 * u.val = u.val; omega
  | ⟨1, _⟩ => show win0_2.index t (1 : Fin 2) * 128 + 1 * k.val = k.val; omega

/-- The norm of row R: the sum over the 128 lanes of the absolute value of the first layer's pre-activation. -/
def rowNorm (x : FVec Ideal S262144x160 .f32) (w : FVec Ideal S160x128 .f32) (b : FVec Ideal S1x128 .f32) (R : Fin 262144) : EReal :=
  ∑ k : Fin 128, FloatOps.absf (F := Ideal) (φ := .f32) ((∑ j : Fin 160, x (ix2 R j) * w (ix2 j k)) + b (ix2 (0 : Fin 1) k))

/-- The norms as a sequence over the naturals (anything past the last row). -/
def normAt (c : Dev nD) (r : ℕ) : EReal :=
  if h : r < 262144 then rowNorm (V c main_arg0) (V c main_arg2) (V c main_v0) ⟨r, h⟩ else 0

/-- The tile's row-norm payload at row p is the norm of row t * 4096 + p. -/
theorem tileNorm (c : Dev nD) (t : Fin cfg0.N) (p : Fin 4096) :
    k0_pay1 (F := Ideal) (iblk0 V c 0 t) (iblk0 V c 1 t) (iblk0 V c 2 t) (ix2 p (0 : Fin 1)) = normAt V c (t.val * 4096 + p.val) := by
  refine (pay1_apply (iblk0 V c 0 t) (iblk0 V c 1 t) (iblk0 V c 2 t) p 0).trans ?_
  unfold normAt
  rw [dif_pos (show t.val * 4096 + p.val < 262144 by have := lt64 t; have := p.isLt; omega)]
  unfold rowNorm
  refine Finset.sum_congr rfl fun k _ => ?_
  rw [iblk0_2_apply]
  refine congrArg (fun z => FloatOps.absf (F := Ideal) (φ := .f32) (z + _)) (Finset.sum_congr rfl fun j _ => ?_)
  rw [iblk0_0_apply, iblk0_1_apply]
  rfl

abbrev TOPW : EReal := Ideal.ofBits .f32 0x7F800000#32
abbrev BOTW : EReal := Ideal.ofBits .f32 0xFF800000#32

/-- The least of tile t's norms, as the fold the body computes. -/
theorem tileLeast (c : Dev nD) (t : Fin cfg0.N) :
    k0_pay2 (F := Ideal) (iblk0 V c 0 t) (iblk0 V c 1 t) (iblk0 V c 2 t) (ix2 (0 : Fin 1) (0 : Fin 1)) = tileMin TOPW 4096 (normAt V c) t.val := by
  refine (pay2_apply (iblk0 V c 0 t) (iblk0 V c 1 t) (iblk0 V c 2 t)).trans ?_
  unfold tileMin
  exact congrArg (fun f => Finset.fold min TOPW f Finset.univ) (funext fun p => tileNorm V c t p)

/-- The greatest of tile t's norms. -/
theorem tileGreatest (c : Dev nD) (t : Fin cfg0.N) :
    k0_pay3 (F := Ideal) (iblk0 V c 0 t) (iblk0 V c 1 t) (iblk0 V c 2 t) (ix2 (0 : Fin 1) (0 : Fin 1)) = tileMax BOTW 4096 (normAt V c) t.val := by
  refine (pay3_apply (iblk0 V c 0 t) (iblk0 V c 1 t) (iblk0 V c 2 t)).trans ?_
  unfold tileMax
  exact congrArg (fun f => Finset.fold max BOTW f Finset.univ) (funext fun p => tileNorm V c t p)

/-- THE RUNNING PAIR: after the body at position n the two blocks hold the running least and greatest of the norms of
    the first (n + 1) * 4096 rows. -/
theorem outsAt0_closed (c : Dev nD) : ∀ (n : ℕ) (hn : n < cfg0.N),
    (outsAt0 V c n hn).1 (ix2 (0 : Fin 1) (0 : Fin 1)) = runMin TOPW 4096 (normAt V c) n
    ∧ (outsAt0 V c n hn).2 (ix2 (0 : Fin 1) (0 : Fin 1)) = runMax BOTW 4096 (normAt V c) n
  | 0, hn => by
    rw [outsAt0, runMin, runMax]
    constructor
    · dsimp only
      unfold out3_A
      rw [View.canon_unit_zero hz2]
      simp only [View.ld_unit_zero (S := S4096x160) hz2, View.ld_unit_zero (S := S160x128) hz2, View.ld_unit_zero (S := S1x128) hz2]
      exact tileLeast V c ⟨0, hn⟩
    · dsimp only
      unfold out4_A
      rw [View.canon_unit_zero hz2]
      simp only [View.ld_unit_zero (S := S4096x160) hz2, View.ld_unit_zero (S := S160x128) hz2, View.ld_unit_zero (S := S1x128) hz2]
      exact tileGreatest V c ⟨0, hn⟩
  | n + 1, hn => by
    obtain ⟨ih1, ih2⟩ := outsAt0_closed c n (Nat.lt_of_succ_lt hn)
    rw [outsAt0, runMin, runMax]
    constructor
    · dsimp only
      unfold out3_B
      rw [View.canon_unit_zero hz2]
      simp only [View.ld_unit_zero (S := S4096x160) hz2, View.ld_unit_zero (S := S160x128) hz2, View.ld_unit_zero (S := S1x128) hz2, View.ld_unit_zero (S := S1x1) hz2]
      rw [pay4_apply, ih1]
      exact congrArg (min _) (tileLeast V c ⟨n + 1, hn⟩)
    · dsimp only
      unfold out4_B
      rw [View.canon_unit_zero hz2]
      simp only [View.ld_unit_zero (S := S4096x160) hz2, View.ld_unit_zero (S := S160x128) hz2, View.ld_unit_zero (S := S1x128) hz2, View.ld_unit_zero (S := S1x1) hz2]
      rw [pay5_apply, ih2]
      exact congrArg (max _) (tileGreatest V c ⟨n + 1, hn⟩)

theorem h63 : 63 < cfg0.N := by have : cfg0.N = 64 := N_0; omega

/-- What the least's array holds after the region: what the body left after the last point, written back once. -/
theorem arr3_final (c : Dev nD) : (dat0 V c).arrAt 3 cfg0.N = (outsAt0 V c 63 h63).1 := by
  refine (dat0 V c).arrAt_eq_of_cover 3 ((outsAt0 V c 63 h63).1) (fun t hf => ?_) (fun i => ?_)
  · have ht : t.val = 63 := by have := (flush0_3 t).mp hf; have := lt64 t; omega
    show (cfg0.win 3).cut (grid0.coords t) ((dat0 V c).after 3 t) = _
    rw [after0_3]
    obtain ⟨-, -, -, -, -, -, e30, e31, e40, e41⟩ := idx_facts0 t
    obtain ⟨n, hn⟩ := t
    have hn63 : n = 63 := ht
    subst hn63
    funext y
    show (outsAt0 V c 63 hn).1 y = (outsAt0 V c 63 h63).1 (((cfg0.win 3).blk ⟨63, hn⟩).view.emb y)
    refine congrArg (outsAt0 V c 63 h63).1 (funext fun a => Fin.ext ?_)
    match a with
    | ⟨0, _⟩ => show (y 0).val = win0_3.index ⟨63, hn⟩ (0 : Fin 2) * 1 + 1 * (y 0).val; omega
    | ⟨1, _⟩ => show (y 1).val = win0_3.index ⟨63, hn⟩ (1 : Fin 2) * 1 + 1 * (y 1).val; omega
  · refine ⟨⟨63, h63⟩, (flush0_3 _).mpr rfl, ?_⟩
    obtain ⟨-, -, -, -, -, -, e30, e31, e40, e41⟩ := idx_facts0 ⟨63, h63⟩
    show i ∈ ((View.whole main_v7_0).slice (win0_3.rect ⟨63, h63⟩)).set
    rw [View.set_slice_whole, Rect.mem_set_unit]
    intro a
    match a with
    | ⟨0, _⟩ => show win0_3.index ⟨63, h63⟩ (0 : Fin 2) * 1 ≤ (i 0).val ∧ (i 0).val < win0_3.index ⟨63, h63⟩ (0 : Fin 2) * 1 + 1; have hi : (i 0).val < 1 := (i 0).isLt; omega
    | ⟨1, _⟩ => show win0_3.index ⟨63, h63⟩ (1 : Fin 2) * 1 ≤ (i 1).val ∧ (i 1).val < win0_3.index ⟨63, h63⟩ (1 : Fin 2) * 1 + 1; have hi : (i 1).val < 1 := (i 1).isLt; omega

/-- Its one entry: the least norm over all 262144 rows, as a fold from the reduction's initial value. -/
theorem arr3_val (c : Dev nD) :
    (dat0 V c).arrAt 3 cfg0.N (ix2 (0 : Fin 1) (0 : Fin 1))
      = (Finset.univ : Finset (Fin 262144)).fold min TOPW (rowNorm (V c main_arg0) (V c main_arg2) (V c main_v0)) := by
  rw [arr3_final, (outsAt0_closed V c 63 h63).1, runMin_eq_fold TOPW 4096 (normAt V c) 63 262144 (by norm_num)]
  refine congrArg (fun f => Finset.fold min TOPW f Finset.univ) (funext fun R => ?_)
  unfold normAt
  rw [dif_pos R.isLt]

/-- What the greatest's array holds after the region: what the body left after the last point, written back once. -/
theorem arr4_final (c : Dev nD) : (dat0 V c).arrAt 4 cfg0.N = (outsAt0 V c 63 h63).2 := by
  refine (dat0 V c).arrAt_eq_of_cover 4 ((outsAt0 V c 63 h63).2) (fun t hf => ?_) (fun i => ?_)
  · have ht : t.val = 63 := by have := (flush0_4 t).mp hf; have := lt64 t; omega
    show (cfg0.win 4).cut (grid0.coords t) ((dat0 V c).after 4 t) = _
    rw [after0_4]
    obtain ⟨-, -, -, -, -, -, e30, e31, e40, e41⟩ := idx_facts0 t
    obtain ⟨n, hn⟩ := t
    have hn63 : n = 63 := ht
    subst hn63
    funext y
    show (outsAt0 V c 63 hn).2 y = (outsAt0 V c 63 h63).2 (((cfg0.win 4).blk ⟨63, hn⟩).view.emb y)
    refine congrArg (outsAt0 V c 63 h63).2 (funext fun a => Fin.ext ?_)
    match a with
    | ⟨0, _⟩ => show (y 0).val = win0_4.index ⟨63, hn⟩ (0 : Fin 2) * 1 + 1 * (y 0).val; omega
    | ⟨1, _⟩ => show (y 1).val = win0_4.index ⟨63, hn⟩ (1 : Fin 2) * 1 + 1 * (y 1).val; omega
  · refine ⟨⟨63, h63⟩, (flush0_4 _).mpr rfl, ?_⟩
    obtain ⟨-, -, -, -, -, -, e30, e31, e40, e41⟩ := idx_facts0 ⟨63, h63⟩
    show i ∈ ((View.whole main_v7_1).slice (win0_4.rect ⟨63, h63⟩)).set
    rw [View.set_slice_whole, Rect.mem_set_unit]
    intro a
    match a with
    | ⟨0, _⟩ => show win0_4.index ⟨63, h63⟩ (0 : Fin 2) * 1 ≤ (i 0).val ∧ (i 0).val < win0_4.index ⟨63, h63⟩ (0 : Fin 2) * 1 + 1; have hi : (i 0).val < 1 := (i 0).isLt; omega
    | ⟨1, _⟩ => show win0_4.index ⟨63, h63⟩ (1 : Fin 2) * 1 ≤ (i 1).val ∧ (i 1).val < win0_4.index ⟨63, h63⟩ (1 : Fin 2) * 1 + 1; have hi : (i 1).val < 1 := (i 1).isLt; omega

/-- Its one entry: the greatest norm over all 262144 rows, as a fold from the reduction's initial value. -/
theorem arr4_val (c : Dev nD) :
    (dat0 V c).arrAt 4 cfg0.N (ix2 (0 : Fin 1) (0 : Fin 1))
      = (Finset.univ : Finset (Fin 262144)).fold max BOTW (rowNorm (V c main_arg0) (V c main_arg2) (V c main_v0)) := by
  rw [arr4_final, (outsAt0_closed V c 63 h63).2, runMax_eq_fold BOTW 4096 (normAt V c) 63 262144 (by norm_num)]
  refine congrArg (fun f => Finset.fold max BOTW f Finset.univ) (funext fun R => ?_)
  unfold normAt
  rw [dif_pos R.isLt]

end ValueA

end Cert.KernelIdeal.Hand

end
-- ==== Proof.KIValueB.lean ====
/-
  What the second pallas_call leaves, read as values over the extended reals. Grid point t loads rows t * 4096 … t * 4096 + 4095
  of the three row-tiled arrays and the whole of the eight small ones, and writes back rows t * 4096 … of the result; the 64
  blocks tile the result array, and each entry (R, q) depends only on row R of the inputs. So the result array is one
  function of the arrays as the region finds them.
-/
import proofs.«172828_j78623671320711_1_alg».proof.Proof.KIRegionB
import proofs.«172828_j78623671320711_1_alg».proof.Proof.KITileOps
import proofs.«172828_j78623671320711_1_alg».proof.Proof.LibFoldTiles
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Tile Cert.LibFoldTiles

section ValueB
variable (V : (c : Dev nD) → (b : Ref sig .tc) → Buf (Elt Ideal) ((c : Thread nD τ).loc b))

theorem hzB : (![0, 0] : Fin 2 → Nat) = fun _ => 0 := funext fun a => by fin_cases a <;> rfl

/-- The printed index maps of the second pallas_call, decided over the grid: the three row-tiled inputs and the output
    move one tile per point, every other window stays at block (0, 0). -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = t.val
    ∧ win1_11.index t (1 : Fin 2) = 0 :=
  (by decide +kernel : ∀ t : Fin grid1.N, _)

theorem lt64B (t : Fin cfg1.N) : t.val < 64 := lt_of_lt_of_eq t.isLt (show cfg1.N = 64 from N_1)

/-- Row p of tile t is row t * 4096 + p of the array. -/
def rowOf1 (t : Fin cfg1.N) (p : Fin 4096) : Fin 262144 := ⟨t.val * 4096 + p.val, by have := lt64B t; have := p.isLt; omega⟩

theorem iblk1_0_apply (c : Dev nD) (t : Fin cfg1.N) (p : Fin 4096) (b : Fin 160) :
    iblk1 V c 0 t (ix2 p b) = V c main_arg0 (ix2 (rowOf1 t p) b) := by
  unfold iblk1
  rw [View.read_apply]
  show V c main_arg0 (((cfg1.win 0).blk t).view.emb (ix2 p b)) = V c main_arg0 _
  obtain ⟨e0, e1, -, -, -, -, -, -, -, -, -, -, -, -, -, -, -, -, -, -, -, -, -, -⟩ := idx_facts1 t
  refine congrArg (V c main_arg0) (funext fun ax => Fin.ext ?_)
  match ax with
  | ⟨0, _⟩ => show win1_0.index t (0 : Fin 2) * 4096 + 1 * p.val = t.val * 4096 + p.val; omega
  | ⟨1, _⟩ => show win1_0.index t (1 : Fin 2) * 160 + 1 * b.val = b.val; omega

theorem iblk1_1_apply (c : Dev nD) (t : Fin cfg1.N) (p : Fin 4096) (b : Fin 160) :
    iblk1 V c 1 t (ix2 p b) = V c main_arg1 (ix2 (rowOf1 t p) b) := by
  unfold iblk1
  rw [View.read_apply]
  show V c main_arg1 (((cfg1.win 1).blk t).view.emb (ix2 p b)) = V c main_arg1 _
  obtain ⟨-, -, e0, e1, -, -, -, -, -, -, -, -, -, -, -, -, -, -, -, -, -, -, -, -⟩ := idx_facts1 t
  refine congrArg (V c main_arg1) (funext fun ax => Fin.ext ?_)
  match ax with
  | ⟨0, _⟩ => show win1_1.index t (0 : Fin 2) * 4096 + 1 * p.val = t.val * 4096 + p.val; omega
  | ⟨1, _⟩ => show win1_1.index t (1 : Fin 2) * 160 + 1 * b.val = b.val; omega

theorem iblk1_2_apply (c : Dev nD) (t : Fin cfg1.N) (p : Fin 4096) (b : Fin 128) :
    iblk1 V c 2 t (ix2 p b) = V c main_arg8 (ix2 (rowOf1 t p) b) := by
  unfold iblk1
  rw [View.read_apply]
  show V c main_arg8 (((cfg1.win 2).blk t).view.emb (ix2 p b)) = V c main_arg8 _
  obtain ⟨-, -, -, -, e0, e1, -, -, -, -, -, -, -, -, -, -, -, -, -, -, -, -, -, -⟩ := idx_facts1 t
  refine congrArg (V c main_arg8) (funext fun ax => Fin.ext ?_)
  match ax with
  | ⟨0, _⟩ => show win1_2.index t (0 : Fin 2) * 4096 + 1 * p.val = t.val * 4096 + p.val; omega
  | ⟨1, _⟩ => show win1_2.index t (1 : Fin 2) * 128 + 1 * b.val = b.val; omega

theorem iblk1_3_apply (c : Dev nD) (t : Fin cfg1.N) (a : Fin 160) (b : Fin 128) :
    iblk1 V c 3 t (ix2 a b) = V c main_arg2 (ix2 a b) := by
  unfold iblk1
  rw [View.read_apply]
  show V c main_arg2 (((cfg1.win 3).blk t).view.emb (ix2 a b)) = V c main_arg2 _
  obtain ⟨-, -, -, -, -, -, e0, e1, -, -, -, -, -, -, -, -, -, -, -, -, -, -, -, -⟩ := idx_facts1 t
  refine congrArg (V c main_arg2) (funext fun ax => Fin.ext ?_)
  match ax with
  | ⟨0, _⟩ => show win1_3.index t (0 : Fin 2) * 160 + 1 * a.val = a.val; omega
  | ⟨1, _⟩ => show win1_3.index t (1 : Fin 2) * 128 + 1 * b.val = b.val; omega

theorem iblk1_4_apply (c : Dev nD) (t : Fin cfg1.N) (a : Fin 1) (b : Fin 128) :
    iblk1 V c 4 t (ix2 a b) = V c main_v0 (ix2 a b) := by
  unfold iblk1
  rw [View.read_apply]
  show V c main_v0 (((cfg1.win 4).blk t).view.emb (ix2 a b)) = V c main_v0 _
  obtain ⟨-, -, -, -, -, -, -, -, e0, e1, -, -, -, -, -, -, -, -, -, -, -, -, -, -⟩ := idx_facts1 t
  refine congrArg (V c main_v0) (funext fun ax => Fin.ext ?_)
  match ax with
  | ⟨0, _⟩ => show win1_4.index t (0 : Fin 2) * 1 + 1 * a.val = a.val; omega
  | ⟨1, _⟩ => show win1_4.index t (1 : Fin 2) * 128 + 1 * b.val = b.val; omega

theorem iblk1_5_apply (c : Dev nD) (t : Fin cfg1.N) (a : Fin 160) (b : Fin 128) :
    iblk1 V c 5 t (ix2 a b) = V c main_arg4 (ix2 a b) := by
  unfold iblk1
  rw [View.read_apply]
  show V c main_arg4 (((cfg1.win 5).blk t).view.emb (ix2 a b)) = V c main_arg4 _
  obtain ⟨-, -, -, -, -, -, -, -, -, -, e0, e1, -, -, -, -, -, -, -, -, -, -, -, -⟩ := idx_facts1 t
  refine congrArg (V c main_arg4) (funext fun ax => Fin.ext ?_)
  match ax with
  | ⟨0, _⟩ => show win1_5.index t (0 : Fin 2) * 160 + 1 * a.val = a.val; omega
  | ⟨1, _⟩ => show win1_5.index t (1 : Fin 2) * 128 + 1 * b.val = b.val; omega

theorem iblk1_6_apply (c : Dev nD) (t : Fin cfg1.N) (a : Fin 1) (b : Fin 128) :
    iblk1 V c 6 t (ix2 a b) = V c main_v1 (ix2 a b) := by
  unfold iblk1
  rw [View.read_apply]
  show V c main_v1 (((cfg1.win 6).blk t).view.emb (ix2 a b)) = V c main_v1 _
  obtain ⟨-, -, -, -, -, -, -, -, -, -, -, -, e0, e1, -, -, -, -, -, -, -, -, -, -⟩ := idx_facts1 t
  refine congrArg (V c main_v1) (funext fun ax => Fin.ext ?_)
  match ax with
  | ⟨0, _⟩ => show win1_6.index t (0 : Fin 2) * 1 + 1 * a.val = a.val; omega
  | ⟨1, _⟩ => show win1_6.index t (1 : Fin 2) * 128 + 1 * b.val = b.val; omega

theorem iblk1_7_apply (c : Dev nD) (t : Fin cfg1.N) (a : Fin 128) (b : Fin 10) :
    iblk1 V c 7 t (ix2 a b) = V c main_arg6 (ix2 a b) := by
  unfold iblk1
  rw [View.read_apply]
  show V c main_arg6 (((cfg1.win 7).blk t).view.emb (ix2 a b)) = V c main_arg6 _
  obtain ⟨-, -, -, -, -, -, -, -, -, -, -, -, -, -, e0, e1, -, -, -, -, -, -, -, -⟩ := idx_facts1 t
  refine congrArg (V c main_arg6) (funext fun ax => Fin.ext ?_)
  match ax with
  | ⟨0, _⟩ => show win1_7.index t (0 : Fin 2) * 128 + 1 * a.val = a.val; omega
  | ⟨1, _⟩ => show win1_7.index t (1 : Fin 2) * 10 + 1 * b.val = b.val; omega

theorem iblk1_8_apply (c : Dev nD) (t : Fin cfg1.N) (a : Fin 1) (b : Fin 10) :
    iblk1 V c 8 t (ix2 a b) = V c main_v2 (ix2 a b) := by
  unfold iblk1
  rw [View.read_apply]
  show V c main_v2 (((cfg1.win 8).blk t).view.emb (ix2 a b)) = V c main_v2 _
  obtain ⟨-, -, -, -, -, -, -, -, -, -, -, -, -, -, -, -, e0, e1, -, -, -, -, -, -⟩ := idx_facts1 t
  refine congrArg (V c main_v2) (funext fun ax => Fin.ext ?_)
  match ax with
  | ⟨0, _⟩ => show win1_8.index t (0 : Fin 2) * 1 + 1 * a.val = a.val; omega
  | ⟨1, _⟩ => show win1_8.index t (1 : Fin 2) * 10 + 1 * b.val = b.val; omega

theorem iblk1_9_apply (c : Dev nD) (t : Fin cfg1.N) (a : Fin 1) (b : Fin 128) :
    iblk1 V c 9 t (ix2 a b) = V c main_v6 (ix2 a b) := by
  unfold iblk1
  rw [View.read_apply]
  show V c main_v6 (((cfg1.win 9).blk t).view.emb (ix2 a b)) = V c main_v6 _
  obtain ⟨-, -, -, -, -, -, -, -, -, -, -, -, -, -, -, -, -, -, e0, e1, -, -, -, -⟩ := idx_facts1 t
  refine congrArg (V c main_v6) (funext fun ax => Fin.ext ?_)
  match ax with
  | ⟨0, _⟩ => show win1_9.index t (0 : Fin 2) * 1 + 1 * a.val = a.val; omega
  | ⟨1, _⟩ => show win1_9.index t (1 : Fin 2) * 128 + 1 * b.val = b.val; omega

theorem iblk1_10_apply (c : Dev nD) (t : Fin cfg1.N) (a : Fin 1) (b : Fin 1) :
    iblk1 V c 10 t (ix2 a b) = V c main_v10 (ix2 a b) := by
  unfold iblk1
  rw [View.read_apply]
  show V c main_v10 (((cfg1.win 10).blk t).view.emb (ix2 a b)) = V c main_v10 _
  obtain ⟨-, -, -, -, -, -, -, -, -, -, -, -, -, -, -, -, -, -, -, -, e0, e1, -, -⟩ := idx_facts1 t
  refine congrArg (V c main_v10) (funext fun ax => Fin.ext ?_)
  match ax with
  | ⟨0, _⟩ => show win1_10.index t (0 : Fin 2) * 1 + 1 * a.val = a.val; omega
  | ⟨1, _⟩ => show win1_10.index t (1 : Fin 2) * 1 + 1 * b.val = b.val; omega

/-- The result at an index, as a function of the arrays the region reads: the head product over the 128 server inputs of
    the index's row plus the head's bias (the [1, n] rows and the [1, 1] multiplier as the region finds them). -/
def GB (x1 x2 : FVec Ideal S262144x160 .f32) (nz : FVec Ideal S262144x128 .f32) (W1 : FVec Ideal S160x128 .f32) (b1 : FVec Ideal S1x128 .f32)
    (W2 : FVec Ideal S160x128 .f32) (b2 : FVec Ideal S1x128 .f32) (Ws : FVec Ideal S128x10 .f32) (bs : FVec Ideal S1x10 .f32)
    (rr : FVec Ideal S1x128 .f32) (mul : FVec Ideal S1x1 .f32) (R : Fin 262144) (q : Fin 10) : EReal :=
  (∑ k : Fin 128,
      min ((((∑ j : Fin 160, x1 (ix2 R j) * W1 (ix2 j k)) + b1 (ix2 (0 : Fin 1) k)) + nz (ix2 R k) * mul (ix2 (0 : Fin 1) (0 : Fin 1))) * rr (ix2 (0 : Fin 1) k))
          ((∑ j : Fin 160, x2 (ix2 R j) * W2 (ix2 j k)) + b2 (ix2 (0 : Fin 1) k))
        * Ws (ix2 k q))
    + bs (ix2 (0 : Fin 1) q)

/-- The result array the region leaves, from the arrays it finds. -/
def GBarr (c : Dev nD) : FVec Ideal S262144x10 .f32 := fun i =>
  GB (V c main_arg0) (V c main_arg1) (V c main_arg8) (V c main_arg2) (V c main_v0) (V c main_arg4) (V c main_v1) (V c main_arg6) (V c main_v2)
    (V c main_v6) (V c main_v10) ⟨(i 0).val, idx2_lt0 i⟩ ⟨(i 1).val, idx2_lt1 i⟩

/-- Where the output's block at point t puts entry (p, q). -/
theorem emb11 (t : Fin cfg1.N) (p : Fin 4096) (q : Fin 10) :
    ((cfg1.win 11).blk t).view.emb (ix2 p q) = ix2 (rowOf1 t p) q := by
  obtain ⟨-, -, -, -, -, -, -, -, -, -, -, -, -, -, -, -, -, -, -, -, -, -, e0, e1⟩ := idx_facts1 t
  refine funext fun ax => Fin.ext ?_
  match ax with
  | ⟨0, _⟩ => show win1_11.index t (0 : Fin 2) * 4096 + 1 * p.val = t.val * 4096 + p.val; omega
  | ⟨1, _⟩ => show win1_11.index t (1 : Fin 2) * 10 + 1 * q.val = q.val; omega

/-- WHAT POINT t WRITES BACK is block t of the result function. -/
theorem flushedB_eq (c : Dev nD) (t : Fin cfg1.N) :
    (dat1 V c).flushed 11 t = ((cfg1.win 11).blk t).view.read (Elt Ideal) (GBarr V c) := by
  show (cfg1.win 11).cut (grid1.coords t) ((dat1 V c).after 11 t) = _
  rw [after1_11]
  unfold out1_11
  rw [View.canon_unit_zero hzB]
  simp only [View.ld_unit_zero (S := S4096x160) hzB, View.ld_unit_zero (S := S4096x128) hzB, View.ld_unit_zero (S := S160x128) hzB,
    View.ld_unit_zero (S := S1x128) hzB, View.ld_unit_zero (S := S128x10) hzB, View.ld_unit_zero (S := S1x10) hzB, View.ld_unit_zero (S := S1x1) hzB]
  funext y
  obtain ⟨p, q, rfl⟩ : ∃ (p : Fin 4096) (q : Fin 10), y = ix2 p q := ⟨y 0, y 1, eq_ix2 y⟩
  rw [View.read_apply, emb11]
  refine (payB_apply (iblk1 V c 0 t) (iblk1 V c 1 t) (iblk1 V c 3 t) (iblk1 V c 5 t) (iblk1 V c 4 t) (iblk1 V c 10 t) (iblk1 V c 2 t)
    (iblk1 V c 9 t) (iblk1 V c 6 t) (iblk1 V c 7 t) (iblk1 V c 8 t) p q).trans ?_
  simp only [iblk1_0_apply, iblk1_1_apply, iblk1_2_apply, iblk1_3_apply, iblk1_4_apply, iblk1_5_apply, iblk1_6_apply, iblk1_7_apply,
    iblk1_8_apply, iblk1_9_apply, iblk1_10_apply]
  rfl

/-- The output's blocks tile the result array: row R is in the block of point R / 4096. -/
theorem coverB (i : S262144x10.Idx) : ∃ t : Fin cfg1.N, (cfg1.win 11).flush t = true ∧ i ∈ ((cfg1.win 11).blk t).view.set := by
  have hi0 : (i 0).val < 262144 := (i 0).isLt
  have hi1 : (i 1).val < 10 := (i 1).isLt
  have hN : cfg1.N = 64 := N_1
  let t : Fin cfg1.N := ⟨(i 0).val / 4096, by omega⟩
  obtain ⟨-, -, -, -, -, -, -, -, -, -, -, -, -, -, -, -, -, -, -, -, -, -, e0, e1⟩ := idx_facts1 t
  refine ⟨t, flush1_11 t, ?_⟩
  show i ∈ ((View.whole main_v11).slice (win1_11.rect t)).set
  rw [View.set_slice_whole, Rect.mem_set_unit]
  intro a
  have ht : t.val = (i 0).val / 4096 := rfl
  match a with
  | ⟨0, _⟩ => show win1_11.index t (0 : Fin 2) * 4096 ≤ (i 0).val ∧ (i 0).val < win1_11.index t (0 : Fin 2) * 4096 + 4096; omega
  | ⟨1, _⟩ => show win1_11.index t (1 : Fin 2) * 10 ≤ (i 1).val ∧ (i 1).val < win1_11.index t (1 : Fin 2) * 10 + 10; omega

/-- THE RESULT ARRAY after the region. -/
theorem finalB (c : Dev nD) : (dat1 V c).arrAt 11 cfg1.N = GBarr V c :=
  (dat1 V c).arrAt_eq_of_cover 11 (GBarr V c) (fun t _ => flushedB_eq V c t) (coverB)

end ValueB

end Cert.KernelIdeal.Hand

end
-- ==== Proof.Spec.lean ====
/-
  The specification: the result array as ONE function of the ten argument arrays, index by index, over the extended reals.

    lin x w b R k   = (row R of x) · (column k of w) + b k                      the linear layer's pre-activation
    norm R          = the sum over the 128 lanes of |lin x1 W1 b1 R k|          a row's absolute sum
    lo, hi          = the least and the greatest norm over all 262144 rows (folds of min and max from the two
                      reductions' initial values)
    nm              = (hi - lo) / eps                                           the noise multiplier
    keep k          = 1 if rr k < 0.95 else 0                                   the column mask
    srv R k         = min ((lin x1 W1 b1 R k + noise R k * nm) * keep k) (lin x2 W2 b2 R k)
    G (R, q)        = (the sum over k of srv R k * Ws k q) + bs q

  Float literals stay the words the two programs print; none is ever evaluated.
-/
import Idealize.ShloMosaic.Lib.ValueIdx
import Idealize.ShloMosaic.PureOps.Ideal.Laws

noncomputable section

namespace Cert.Spec

open Idealize.ShloMosaic Idealize.ShloMosaic.ValueIdx

abbrev SX : Shape := ⟨2, ![262144, 160]⟩
abbrev SW : Shape := ⟨2, ![160, 128]⟩
abbrev SB : Shape := ⟨1, ![128]⟩
abbrev SWs : Shape := ⟨2, ![128, 10]⟩
abbrev SBs : Shape := ⟨1, ![10]⟩
abbrev SN : Shape := ⟨2, ![262144, 128]⟩
abbrev SO : Shape := ⟨2, ![262144, 10]⟩

/-- The two reductions' initial values, the divisor and the mask's threshold, as the words both programs print. -/
abbrev topW : EReal := Ideal.ofBits .f32 0x7F800000#32
abbrev botW : EReal := Ideal.ofBits .f32 0xFF800000#32
abbrev epsW : EReal := Ideal.ofBits .f32 0x3E088889#32
abbrev keepW : EReal := Ideal.ofBits .f32 0x3F733333#32

/-- A linear layer's pre-activation at row R, lane k. -/
def lin (x : FVec Ideal SX .f32) (w : FVec Ideal SW .f32) (b : FVec Ideal SB .f32) (R : Fin 262144) (k : Fin 128) : EReal :=
  (∑ j : Fin 160, x (ix2 R j) * w (ix2 j k)) + b (ix1 k)

/-- A row's absolute sum over the lanes. -/
def norm (x : FVec Ideal SX .f32) (w : FVec Ideal SW .f32) (b : FVec Ideal SB .f32) (R : Fin 262144) : EReal :=
  ∑ k : Fin 128, FloatOps.absf (F := Ideal) (φ := .f32) (lin x w b R k)

/-- The least norm over all rows. -/
def lo (x : FVec Ideal SX .f32) (w : FVec Ideal SW .f32) (b : FVec Ideal SB .f32) : EReal :=
  (Finset.univ : Finset (Fin 262144)).fold min topW (norm x w b)

/-- The greatest norm over all rows. -/
def hi (x : FVec Ideal SX .f32) (w : FVec Ideal SW .f32) (b : FVec Ideal SB .f32) : EReal :=
  (Finset.univ : Finset (Fin 262144)).fold max botW (norm x w b)

/-- The noise multiplier. -/
def nm (x : FVec Ideal SX .f32) (w : FVec Ideal SW .f32) (b : FVec Ideal SB .f32) : EReal :=
  Ideal.div (hi x w b - lo x w b) epsW

/-- The column mask. -/
def keep (u : FVec Ideal SB .f32) (k : Fin 128) : EReal :=
  FloatOps.uitofp (F := Ideal) .f32 (FloatOps.cmpf (F := Ideal) (φ := .f32) .olt (u (ix1 k)) keepW)

/-- The server's input at row R, lane k. -/
def srv (x1 x2 : FVec Ideal SX .f32) (W1 : FVec Ideal SW .f32) (b1 : FVec Ideal SB .f32) (W2 : FVec Ideal SW .f32) (b2 : FVec Ideal SB .f32)
    (noise : FVec Ideal SN .f32) (rr : FVec Ideal SB .f32) (R : Fin 262144) (k : Fin 128) : EReal :=
  min ((lin x1 W1 b1 R k + noise (ix2 R k) * nm x1 W1 b1) * keep rr k) (lin x2 W2 b2 R k)

/-- The result at row R, column q. -/
def out (x1 x2 : FVec Ideal SX .f32) (W1 : FVec Ideal SW .f32) (b1 : FVec Ideal SB .f32) (W2 : FVec Ideal SW .f32) (b2 : FVec Ideal SB .f32)
    (Ws : FVec Ideal SWs .f32) (bs : FVec Ideal SBs .f32) (noise : FVec Ideal SN .f32) (rr : FVec Ideal SB .f32) (R : Fin 262144) (q : Fin 10) : EReal :=
  (∑ k : Fin 128, srv x1 x2 W1 b1 W2 b2 noise rr R k * Ws (ix2 k q)) + bs (ix1 q)

/-- The result array. -/
def G (x1 x2 : FVec Ideal SX .f32) (W1 : FVec Ideal SW .f32) (b1 : FVec Ideal SB .f32) (W2 : FVec Ideal SW .f32) (b2 : FVec Ideal SB .f32)
    (Ws : FVec Ideal SWs .f32) (bs : FVec Ideal SBs .f32) (noise : FVec Ideal SN .f32) (rr : FVec Ideal SB .f32) : FVec Ideal SO .f32 :=
  fun i => out x1 x2 W1 b1 W2 b2 Ws bs noise rr ⟨(i 0).val, idx2_lt0 i⟩ ⟨(i 1).val, idx2_lt1 i⟩

end Cert.Spec

end
-- ==== Proof.KIValue.lean ====
/-
  The kernel's result is the specification. What the second pallas_call reads, in terms of the launch arrays: the argument
  arrays themselves; the three bias rows and the mask row, which the first host operations wrote ([n] arrays viewed as
  [1, n], the mask the comparison against the threshold); and the [1, 1] multiplier, which the middle host operations
  computed from the first pallas_call's two results — the greatest and the least row norm over all rows.
-/
import proofs.«172828_j78623671320711_1_alg».proof.Proof.KIRun
import proofs.«172828_j78623671320711_1_alg».proof.Proof.KIValueA
import proofs.«172828_j78623671320711_1_alg».proof.Proof.KIValueB
import proofs.«172828_j78623671320711_1_alg».proof.Proof.Spec
import Idealize.ShloMosaic.Lib.StableHlo.Run
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Tile Cert.LibFoldTiles

open Idealize.ShloMosaic.StableHlo

/-- The second kernel's result function meets the specification's entry when its arrays are the launch arrays, its rows
    read the [n] arrays, its mask row is the column mask and its multiplier the noise multiplier. -/
theorem GB_spec (X1 X2 : FVec Ideal S262144x160 .f32) (nz : FVec Ideal S262144x128 .f32) (W1 : FVec Ideal S160x128 .f32) (b1 : FVec Ideal S1x128 .f32)
    (W2 : FVec Ideal S160x128 .f32) (b2 : FVec Ideal S1x128 .f32) (Ws : FVec Ideal S128x10 .f32) (bs : FVec Ideal S1x10 .f32)
    (rr : FVec Ideal S1x128 .f32) (mul : FVec Ideal S1x1 .f32)
    (x3 x5 x9 : FVec Ideal S128 .f32) (x7 : FVec Ideal S10 .f32)
    (hb1 : ∀ k : Fin 128, b1 (ix2 (0 : Fin 1) k) = x3 (ix1 k)) (hb2 : ∀ k : Fin 128, b2 (ix2 (0 : Fin 1) k) = x5 (ix1 k))
    (hbs : ∀ q : Fin 10, bs (ix2 (0 : Fin 1) q) = x7 (ix1 q)) (hrr : ∀ k : Fin 128, rr (ix2 (0 : Fin 1) k) = Cert.Spec.keep x9 k)
    (hmul : mul (ix2 (0 : Fin 1) (0 : Fin 1)) = Cert.Spec.nm X1 W1 x3) (R : Fin 262144) (q : Fin 10) :
    GB X1 X2 nz W1 b1 W2 b2 Ws bs rr mul R q = Cert.Spec.out X1 X2 W1 x3 W2 x5 Ws x7 nz x9 R q := by
  unfold GB Cert.Spec.out Cert.Spec.srv Cert.Spec.lin
  simp only [hb1, hb2, hbs, hrr, hmul]

variable (m : (ℓ : Loc nD τ sig) → Buf (Elt Ideal) ℓ) (ρ : Dev nD → PrngReg)

/-! ## What the first pallas_call finds -/

theorem U1_arg0 (c : Dev nD) : U1 m ρ c main_arg0 = (m ((c : Thread nD τ).loc main_arg0)) :=
  (StableHlo.after_of_writes_sub hostOps0 _ hostOps0_writes (by decide)).trans rfl
theorem U1_arg2 (c : Dev nD) : U1 m ρ c main_arg2 = (m ((c : Thread nD τ).loc main_arg2)) :=
  (StableHlo.after_of_writes_sub hostOps0 _ hostOps0_writes (by decide)).trans rfl
/-- The first bias, as a [1, 128] row. -/
theorem U1_v0 (c : Dev nD) : (U1 m ρ c main_v0 : FVec Ideal S1x128 .f32) = shapeCast S1x128 (m ((c : Thread nD τ).loc main_arg3)) shapeCasts_S128_S1x128 := by
  show StableHlo.after hostOps0 (W0 m ρ c) (Proc.devRef .tc main_v0) = _
  after_results
  rfl

/-- A row's norm as the first kernel computes it is the specification's. -/
theorem rowNorm_spec (c : Dev nD) (R : Fin 262144) :
    rowNorm (U1 m ρ c main_arg0) (U1 m ρ c main_arg2) (U1 m ρ c main_v0) R = Cert.Spec.norm (m ((c : Thread nD τ).loc main_arg0)) (m ((c : Thread nD τ).loc main_arg2)) (m ((c : Thread nD τ).loc main_arg3)) R := by
  unfold rowNorm Cert.Spec.norm Cert.Spec.lin
  rw [U1_arg0, U1_arg2, U1_v0]
  simp only [shapeCast_a_1a_apply]

/-! ## What the second pallas_call finds -/

theorem U3_arg0 (c : Dev nD) : U3 m ρ c main_arg0 = (m ((c : Thread nD τ).loc main_arg0)) :=
  ((W4_arr m ρ c 0).trans (((dat1 (U3 m ρ) c).arrAt_in 0 rfl _).trans (A_eq1 (U3 m ρ) c 0))).symm.trans (W4_main_arg0 m ρ c)

theorem U3_arg1 (c : Dev nD) : U3 m ρ c main_arg1 = (m ((c : Thread nD τ).loc main_arg1)) :=
  ((W4_arr m ρ c 1).trans (((dat1 (U3 m ρ) c).arrAt_in 1 rfl _).trans (A_eq1 (U3 m ρ) c 1))).symm.trans (W4_main_arg1 m ρ c)

theorem U3_arg2 (c : Dev nD) : U3 m ρ c main_arg2 = (m ((c : Thread nD τ).loc main_arg2)) :=
  ((W4_arr m ρ c 3).trans (((dat1 (U3 m ρ) c).arrAt_in 3 rfl _).trans (A_eq1 (U3 m ρ) c 3))).symm.trans (W4_main_arg2 m ρ c)

theorem U3_arg4 (c : Dev nD) : U3 m ρ c main_arg4 = (m ((c : Thread nD τ).loc main_arg4)) :=
  ((W4_arr m ρ c 5).trans (((dat1 (U3 m ρ) c).arrAt_in 5 rfl _).trans (A_eq1 (U3 m ρ) c 5))).symm.trans (W4_main_arg4 m ρ c)

theorem U3_arg6 (c : Dev nD) : U3 m ρ c main_arg6 = (m ((c : Thread nD τ).loc main_arg6)) :=
  ((W4_arr m ρ c 7).trans (((dat1 (U3 m ρ) c).arrAt_in 7 rfl _).trans (A_eq1 (U3 m ρ) c 7))).symm.trans (W4_main_arg6 m ρ c)

theorem U3_arg8 (c : Dev nD) : U3 m ρ c main_arg8 = (m ((c : Thread nD τ).loc main_arg8)) :=
  ((W4_arr m ρ c 2).trans (((dat1 (U3 m ρ) c).arrAt_in 2 rfl _).trans (A_eq1 (U3 m ρ) c 2))).symm.trans (W4_main_arg8 m ρ c)

/-- The first bias row: written before the first pallas_call, which only reads it. -/
theorem U3_v0 (c : Dev nD) : (U3 m ρ c main_v0 : FVec Ideal S1x128 .f32) = shapeCast S1x128 (m ((c : Thread nD τ).loc main_arg3)) shapeCasts_S128_S1x128 :=
  calc (U3 m ρ c main_v0 : FVec Ideal S1x128 .f32)
    _ = W2 m ρ c (Proc.devRef .tc main_v0) := StableHlo.after_of_writes_sub hostOps1 _ hostOps1_writes (by decide)
    _ = W1 m ρ c (Proc.devRef .tc main_v0) := (W2_arr m ρ c 2).trans (((dat0 (U1 m ρ) c).arrAt_in 2 rfl _).trans (A_eq0 (U1 m ρ) c 2))
    _ = _ := U1_v0 m ρ c

/-- The second bias row. -/
theorem U3_v1 (c : Dev nD) : (U3 m ρ c main_v1 : FVec Ideal S1x128 .f32) = shapeCast S1x128 (m ((c : Thread nD τ).loc main_arg5)) shapeCasts_S128_S1x128 :=
  calc (U3 m ρ c main_v1 : FVec Ideal S1x128 .f32)
    _ = W2 m ρ c (Proc.devRef .tc main_v1) := StableHlo.after_of_writes_sub hostOps1 _ hostOps1_writes (by decide)
    _ = W1 m ρ c (Proc.devRef .tc main_v1) := W2_of_ne m ρ c main_v1 (by decide)
    _ = _ := by
      show StableHlo.after hostOps0 (W0 m ρ c) (Proc.devRef .tc main_v1) = _
      after_results
      rfl

/-- The head's bias row. -/
theorem U3_v2 (c : Dev nD) : (U3 m ρ c main_v2 : FVec Ideal S1x10 .f32) = shapeCast S1x10 (m ((c : Thread nD τ).loc main_arg7)) shapeCasts_S10_S1x10 :=
  calc (U3 m ρ c main_v2 : FVec Ideal S1x10 .f32)
    _ = W2 m ρ c (Proc.devRef .tc main_v2) := StableHlo.after_of_writes_sub hostOps1 _ hostOps1_writes (by decide)
    _ = W1 m ρ c (Proc.devRef .tc main_v2) := W2_of_ne m ρ c main_v2 (by decide)
    _ = _ := by
      show StableHlo.after hostOps0 (W0 m ρ c) (Proc.devRef .tc main_v2) = _
      after_results
      rfl

/-- The mask row: the comparison of the uniforms against the threshold, as 0 / 1, viewed as [1, 128]. -/
theorem U3_v6 (c : Dev nD) : (U3 m ρ c main_v6 : FVec Ideal S1x128 .f32)
    = shapeCast S1x128 (uitofp (F := Ideal) .f32 (cmpf (F := Ideal) .olt (m ((c : Thread nD τ).loc main_arg9)) (broadcastInDim S128 ![] bcast_S_S128 (constant (F := Ideal) S_ .f32 0x3F733333#32)))) shapeCasts_S128_S1x128 :=
  calc (U3 m ρ c main_v6 : FVec Ideal S1x128 .f32)
    _ = W2 m ρ c (Proc.devRef .tc main_v6) := StableHlo.after_of_writes_sub hostOps1 _ hostOps1_writes (by decide)
    _ = W1 m ρ c (Proc.devRef .tc main_v6) := W2_of_ne m ρ c main_v6 (by decide)
    _ = _ := by
      show StableHlo.after hostOps0 (W0 m ρ c) (Proc.devRef .tc main_v6) = _
      after_results
      rfl

/-- The multiplier: (greatest - least) / eps of the first pallas_call's two results. -/
theorem U3_v10 (c : Dev nD) : (U3 m ρ c main_v10 : FVec Ideal S1x1 .f32)
    = Host.divf (subf ((dat0 (U1 m ρ) c).arrAt 4 cfg0.N) ((dat0 (U1 m ρ) c).arrAt 3 cfg0.N))
        (broadcastInDim S1x1 ![] bcast_S_S1x1 (constant (F := Ideal) S_ .f32 0x3E088889#32)) := by
  rw [← W2_arr m ρ c 4, ← W2_arr m ρ c 3]
  show StableHlo.after hostOps1 (W2 m ρ c) (Proc.devRef .tc main_v10) = _
  after_results
  try rfl

/-- A quotient of a difference of two [1, 1] arrays by a broadcast scalar, read at an entry. -/
theorem divsub_apply (a b : FVec Ideal S1x1 .f32) (cst : FVec Ideal S_ .f32) (i : S1x1.Idx) :
    Host.divf (F := Ideal) (subf a b) (broadcastInDim S1x1 ![] bcast_S_S1x1 cst) i = Ideal.div (a i - b i) (cst ix0) := by
  show Ideal.div (a i - b i) (broadcastInDim S1x1 ![] bcast_S_S1x1 cst i) = _
  rw [broadcastInDim_apply _ bcast_S_S1x1 cst i ix0 (fun a => a.elim0)]

/-- The mask row read at lane k is the specification's column mask. -/
theorem mask_apply (u : FVec Ideal S128 .f32) (k : Fin 128) :
    shapeCast S1x128 (uitofp (F := Ideal) .f32 (cmpf (F := Ideal) .olt u (broadcastInDim S128 ![] bcast_S_S128 (constant (F := Ideal) S_ .f32 0x3F733333#32))))
      shapeCasts_S128_S1x128 (ix2 (0 : Fin 1) k) = Cert.Spec.keep u k := by
  rw [shapeCast_a_1a_apply]
  unfold Cert.Spec.keep
  show FloatOps.uitofp .f32 (FloatOps.cmpf .olt (u (ix1 k)) (broadcastInDim S128 ![] bcast_S_S128 (constant (F := Ideal) S_ .f32 0x3F733333#32) (ix1 k))) = _
  rw [broadcastInDim_apply _ bcast_S_S128 _ (ix1 k) ix0 (fun a => a.elim0)]
  rfl

/-- The multiplier's one entry is the specification's noise multiplier. -/
theorem U3_v10_val (c : Dev nD) :
    (U3 m ρ c main_v10 : FVec Ideal S1x1 .f32) (ix2 (0 : Fin 1) (0 : Fin 1)) = Cert.Spec.nm (m ((c : Thread nD τ).loc main_arg0)) (m ((c : Thread nD τ).loc main_arg2)) (m ((c : Thread nD τ).loc main_arg3)) := by
  rw [U3_v10]
  refine (divsub_apply _ _ _ _).trans ?_
  rw [arr4_val, arr3_val]
  unfold Cert.Spec.nm Cert.Spec.hi Cert.Spec.lo
  rw [show rowNorm (U1 m ρ c main_arg0) (U1 m ρ c main_arg2) (U1 m ρ c main_v0) = Cert.Spec.norm (m ((c : Thread nD τ).loc main_arg0)) (m ((c : Thread nD τ).loc main_arg2)) (m ((c : Thread nD τ).loc main_arg3)) from funext (rowNorm_spec m ρ c)]
  rfl

/-! ## The result -/

/-- THE KERNEL'S RESULT ARRAY is the specification of the launch arrays. -/
theorem kernel_value (c : Dev nD) :
    (dat1 (U3 m ρ) c).arrAt 11 cfg1.N = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [finalB]
  funext i
  show GB (U3 m ρ c main_arg0) (U3 m ρ c main_arg1) (U3 m ρ c main_arg8) (U3 m ρ c main_arg2) (U3 m ρ c main_v0) (U3 m ρ c main_arg4) (U3 m ρ c main_v1)
      (U3 m ρ c main_arg6) (U3 m ρ c main_v2) (U3 m ρ c main_v6) (U3 m ρ c main_v10) ⟨(i 0).val, idx2_lt0 i⟩ ⟨(i 1).val, idx2_lt1 i⟩
    = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) ⟨(i 0).val, idx2_lt0 i⟩ ⟨(i 1).val, idx2_lt1 i⟩
  rw [U3_arg0, U3_arg1, U3_arg8, U3_arg2, U3_arg4, U3_arg6]
  refine GB_spec _ _ _ _ _ _ _ _ _ _ _ (m ((c : Thread nD τ).loc main_arg3)) (m ((c : Thread nD τ).loc main_arg5)) (m ((c : Thread nD τ).loc main_arg9)) (m ((c : Thread nD τ).loc main_arg7)) (fun k => ?_) (fun k => ?_) (fun q => ?_) (fun k => ?_) (U3_v10_val m ρ c) _ _
  · rw [U3_v0]; exact shapeCast_a_1a_apply _ _ 0 k
  · rw [U3_v1]; exact shapeCast_a_1a_apply _ _ 0 k
  · rw [U3_v2]; exact shapeCast_a_1a_apply _ _ 0 q
  · rw [U3_v6]; exact mask_apply _ k

end Cert.KernelIdeal.Hand

end
-- ==== Proof.LibFoldIdx.lean ====
/-
  A fold over all indices of a rank-1 shape [n], by a commutative and associative operation, is the fold over the
  coordinate k : Fin n of the function read at the index with that coordinate.
-/
import Idealize.ShloMosaic.Lib.ValueIdx
import Mathlib.Data.Finset.Fold

namespace Cert.LibFoldIdx

open Idealize.ShloMosaic Idealize.ShloMosaic.ValueIdx

/-- The fold over the index set of shape [n] re-indexed by the coordinate. -/
theorem fold_ix1 {α : Type} (op : α → α → α) [Std.Commutative op] [Std.Associative op] (b : α) {n : ℕ}
    (f : (⟨1, ![n]⟩ : Shape).Idx → α) :
    (Finset.univ : Finset (⟨1, ![n]⟩ : Shape).Idx).fold op b f = (Finset.univ : Finset (Fin n)).fold op b (fun R => f (ix1 R)) := by
  have hs : Function.Surjective (ix1 : Fin n → (⟨1, ![n]⟩ : Shape).Idx) := fun j => ⟨j 0, (eq_ix1 j).symm⟩
  rw [← Finset.image_univ_of_surjective hs, Finset.fold_image (fun x _ y _ h => by have := congrFun h (0 : Fin 1); exact this)]
  rfl

end Cert.LibFoldIdx
-- ==== Proof.RefValue.lean ====
/-
  The reference's result is the specification. Each of the reference's host operations is read at an index written by
  coordinates: the two linear layers' pre-activations, a row's absolute sum, the two whole-array reductions as folds of
  max and min over the 262144 rows, the noise multiplier, the column mask, the server's input and the head's product.
-/
import proofs.«172828_j78623671320711_1_alg».proof.Proof.Gen.ReferenceIdeal.Read
import proofs.«172828_j78623671320711_1_alg».proof.Proof.Spec
import proofs.«172828_j78623671320711_1_alg».proof.Proof.LibFoldIdx
import Idealize.ShloMosaic.PureOps.Reduce
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read Cert.LibFoldIdx

variable (x0 x1 : FVec Ideal S262144x160 .f32) (x2 x4 : FVec Ideal S160x128 .f32) (x3 x5 x9 : FVec Ideal S128 .f32)
  (x6 : FVec Ideal S128x10 .f32) (x7 : FVec Ideal S10 .f32) (x8 : FVec Ideal S262144x128 .f32)

/-- The first layer's pre-activation at (R, k). -/
theorem v3_at (R : Fin 262144) (k : Fin 128) : val_main_v3 (F := Ideal) x0 x2 x3 (ix2 R k) = Cert.Spec.lin x0 x2 x3 R k := by
  rw [val_main_v3_apply, val_main_v0_apply, val_main_v2_apply, val_main_v1_apply]
  unfold Cert.Spec.lin
  have el : ∀ j : Fin 160, lidx_main_v0 (ix2 R k) j = ix2 R j := fun j => funext fun a => Fin.ext (by match a with | ⟨0, _⟩ => rfl | ⟨1, _⟩ => rfl)
  have er : ∀ j : Fin 160, ridx_main_v0 (ix2 R k) j = ix2 j k := fun j => funext fun a => Fin.ext (by match a with | ⟨0, _⟩ => rfl | ⟨1, _⟩ => rfl)
  have eb : idx_main_v1 (idx_main_v2 (ix2 R k)) = ix1 k := funext fun a => Fin.ext (by match a with | ⟨0, _⟩ => rfl)
  simp only [el, er, eb]
  rfl

/-- The second layer's pre-activation at (R, k). -/
theorem v22_at (R : Fin 262144) (k : Fin 128) : val_main_v22 (F := Ideal) x1 x4 x5 (ix2 R k) = Cert.Spec.lin x1 x4 x5 R k := by
  rw [val_main_v22_apply, val_main_v19_apply, val_main_v21_apply, val_main_v20_apply]
  unfold Cert.Spec.lin
  have el : ∀ j : Fin 160, lidx_main_v19 (ix2 R k) j = ix2 R j := fun j => funext fun a => Fin.ext (by match a with | ⟨0, _⟩ => rfl | ⟨1, _⟩ => rfl)
  have er : ∀ j : Fin 160, ridx_main_v19 (ix2 R k) j = ix2 j k := fun j => funext fun a => Fin.ext (by match a with | ⟨0, _⟩ => rfl | ⟨1, _⟩ => rfl)
  have eb : idx_main_v20 (idx_main_v21 (ix2 R k)) = ix1 k := funext fun a => Fin.ext (by match a with | ⟨0, _⟩ => rfl)
  simp only [el, er, eb]
  rfl

/-- A row's absolute sum: the reference's sum from zero over the lanes. -/
theorem v5_at (R : Fin 262144) : val_main_v5 (F := Ideal) x0 x2 x3 (ix1 R) = Cert.Spec.norm x0 x2 x3 R := by
  rw [val_main_v5_apply]
  unfold Cert.Spec.norm
  have ez : val_main_cst (F := Ideal) (Shape.Idx.first h_S_) = 0 := Ideal.ofBits_zero_f32
  rw [ez, zero_add]
  refine Finset.sum_congr rfl fun k _ => ?_
  have ei : idx_main_v5 (ix1 R) k = ix2 R k := funext fun a => Fin.ext (by match a with | ⟨0, _⟩ => rfl | ⟨1, _⟩ => rfl)
  rw [ei, val_main_v4_apply, v3_at]
  rfl

set_option maxRecDepth 200000 in
/-- The least norm: the reference's min-reduce over all rows is the fold of min from its initial value. -/
theorem v7_at (i : S_.Idx) : val_main_v7 (F := Ideal) x0 x2 x3 i = Cert.Spec.lo x0 x2 x3 := by
  unfold val_main_v7 Cert.Spec.lo
  refine (Host.reduce_eq_fold (s := S262144) (t := S_) (axes := [0]) (u := S_) (α := Ideal .f32) (FloatOps.minimumf (F := Ideal) (φ := .f32)) (val_main_v5 (F := Ideal) x0 x2 x3) (val_main_cst_1 (F := Ideal)) reducesTo_S262144_S_d0 h_S_ i).trans ?_
  rw [Finset.filter_true_of_mem (fun j _ => funext fun b => b.elim0)]
  refine (fold_ix1 (FloatOps.minimumf (F := Ideal) (φ := .f32)) _ (val_main_v5 (F := Ideal) x0 x2 x3)).trans ?_
  have ef : (fun R : Fin 262144 => val_main_v5 (F := Ideal) x0 x2 x3 (ix1 R)) = Cert.Spec.norm x0 x2 x3 := funext fun R => v5_at x0 x2 x3 R
  rw [ef]
  rfl

set_option maxRecDepth 200000 in
/-- The greatest norm. -/
theorem v6_at (i : S_.Idx) : val_main_v6 (F := Ideal) x0 x2 x3 i = Cert.Spec.hi x0 x2 x3 := by
  unfold val_main_v6 Cert.Spec.hi
  refine (Host.reduce_eq_fold (s := S262144) (t := S_) (axes := [0]) (u := S_) (α := Ideal .f32) (FloatOps.maximumf (F := Ideal) (φ := .f32)) (val_main_v5 (F := Ideal) x0 x2 x3) (val_main_cst_0 (F := Ideal)) reducesTo_S262144_S_d0 h_S_ i).trans ?_
  rw [Finset.filter_true_of_mem (fun j _ => funext fun b => b.elim0)]
  refine (fold_ix1 (FloatOps.maximumf (F := Ideal) (φ := .f32)) _ (val_main_v5 (F := Ideal) x0 x2 x3)).trans ?_
  have ef : (fun R : Fin 262144 => val_main_v5 (F := Ideal) x0 x2 x3 (ix1 R)) = Cert.Spec.norm x0 x2 x3 := funext fun R => v5_at x0 x2 x3 R
  rw [ef]
  rfl

/-- The noise multiplier. -/
theorem v9_at (i : S_.Idx) : val_main_v9 (F := Ideal) x0 x2 x3 i = Cert.Spec.nm x0 x2 x3 := by
  rw [val_main_v9_apply, val_main_v8_apply, v6_at, v7_at]
  rfl

/-- The column mask at (R, k). -/
theorem v17_at (R : Fin 262144) (k : Fin 128) : val_main_v17 (F := Ideal) x9 (ix2 R k) = Cert.Spec.keep x9 k := by
  rw [val_main_v17_apply, val_main_v16_apply, val_main_v15_apply, val_main_v14_apply, val_main_v13_apply]
  have e : idx_main_v16 (idx_main_v17 (ix2 R k)) = ix1 k := funext fun a => Fin.ext (by match a with | ⟨0, _⟩ => rfl)
  rw [e]
  rfl

/-- The server's input at (R, k). -/
theorem v23_at (R : Fin 262144) (k : Fin 128) :
    val_main_v23 (F := Ideal) x0 x1 x2 x3 x4 x5 x8 x9 (ix2 R k) = Cert.Spec.srv x0 x1 x2 x3 x4 x5 x8 x9 R k := by
  rw [val_main_v23_apply, val_main_v18_apply, val_main_v12_apply, val_main_v11_apply, val_main_v10_apply, v3_at, v22_at, v17_at, v9_at]
  rfl

/-- THE REFERENCE'S RESULT is the specification. -/
theorem result_eq : val_main_v27 (F := Ideal) x0 x1 x2 x3 x4 x5 x6 x7 x8 x9 = Cert.Spec.G x0 x1 x2 x3 x4 x5 x6 x7 x8 x9 := by
  funext i
  obtain ⟨R, q, rfl⟩ : ∃ (R : Fin 262144) (q : Fin 10), i = ix2 R q := ⟨i 0, i 1, eq_ix2 i⟩
  rw [val_main_v27_apply, val_main_v24_apply, val_main_v26_apply, val_main_v25_apply]
  show _ = Cert.Spec.out x0 x1 x2 x3 x4 x5 x6 x7 x8 x9 R q
  unfold Cert.Spec.out
  have el : ∀ k : Fin 128, lidx_main_v24 (ix2 R q) k = ix2 R k := fun k => funext fun a => Fin.ext (by match a with | ⟨0, _⟩ => rfl | ⟨1, _⟩ => rfl)
  have er : ∀ k : Fin 128, ridx_main_v24 (ix2 R q) k = ix2 k q := fun k => funext fun a => Fin.ext (by match a with | ⟨0, _⟩ => rfl | ⟨1, _⟩ => rfl)
  have eb : idx_main_v25 (idx_main_v26 (ix2 R q)) = ix1 q := funext fun a => Fin.ext (by match a with | ⟨0, _⟩ => rfl)
  simp only [el, er, eb, v23_at]
  rfl

end Cert.ReferenceIdeal.RefValue

end
-- ==== Proof.lean ====
/-
  The two programs compute one function of their ten argument arrays over the extended reals.

  Per row R of the 262144 rows: the first client's pre-activation lin1 R k = (row R of x1) · (column k of W1) + b1 k and the row's
  absolute sum norm R = the sum over the 128 lanes of |lin1 R k|. Over all rows: lo and hi, the least and the greatest norm, and the
  noise multiplier nm = (hi - lo) / eps. Then the server's input srv R k = min ((lin1 R k + noise R k * nm) * keep k) (lin2 R k),
  keep k being 1 where the k-th uniform is below the threshold and 0 elsewhere, and the result out R q = (the sum over k of
  srv R k * Ws k q) + bs q.

  The reference computes this with whole-array operations. The kernel computes it in two passes over 64 tiles of 4096 rows: the first
  pass keeps a running least and a running greatest of the tiles' own least and greatest norms (the first tile stores them, every later
  tile folds its own into what the tile before left), which after the last tile are lo and hi — a least or greatest taken tile by tile
  is the one taken over all rows, for any initial value of the folds; the second pass computes each tile of the result from the rows of
  that tile alone, and the 64 tiles tile the result. Every other difference is one of spelling: a matrix product into a zero
  accumulator against a whole-array product, both a sum over the contracted coordinate; a lane sum against a sum from zero; a change
  of float format, which is the identity here; a bias viewed as a [1, n] row and broadcast down the rows against a bias broadcast twice.
  No law used needs the inputs finite: sums and products are compared term by term, and min / max only through their bounds.

  Both programs run to the end, fault nowhere and leave their arguments unchanged: the reference because it is a line of host
  operations; the kernel (read at words and read over the extended reals, by one argument) because each of its two pallas_calls, run
  from the buffer contents the operations before it leave, leaves its input arrays as they were and each output array at what its
  write-backs leave, and no operation writes an argument.
-/
import proofs.«172828_j78623671320711_1_alg».proof.Defs
import proofs.«172828_j78623671320711_1_alg».proof.Proof.Gen.Kernel
import proofs.«172828_j78623671320711_1_alg».proof.Proof.Gen.KernelIdeal
import proofs.«172828_j78623671320711_1_alg».proof.Proof.Gen.ReferenceIdeal
import proofs.«172828_j78623671320711_1_alg».proof.Proof.Gen.ReferenceIdeal.Run
import proofs.«172828_j78623671320711_1_alg».proof.Proof.Gen.ReferenceIdeal.Read
import proofs.«172828_j78623671320711_1_alg».proof.Proof.Gen.Pre_finite_inputs
import proofs.«172828_j78623671320711_1_alg».proof.Proof.KRun
import proofs.«172828_j78623671320711_1_alg».proof.Proof.KIRun
import proofs.«172828_j78623671320711_1_alg».proof.Proof.KIValue
import proofs.«172828_j78623671320711_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Hand.frame m ρ

/-- The kernel read over the extended reals runs and leaves its arguments unchanged. -/
theorem frame_ki : Cert.frame_KernelIdeal := fun m ρ _ => Cert.KernelIdeal.Hand.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification of the argument arrays in their result. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Hand.kernel_value m ρ c), (h c).2⟩) (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v27_eq, Cert.ReferenceIdeal.RefValue.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
